-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1x64x32 : Shape := ⟨4, ![64, 1, 64, 32]⟩
abbrev S64x1x2016 : Shape := ⟨3, ![64, 1, 2016]⟩
abbrev S256 : Shape := ⟨1, ![256]⟩
abbrev S4x256 : Shape := ⟨2, ![4, 256]⟩
abbrev S_ : Shape := ⟨0, ![]⟩

class Facts : Prop where
  bcast_S_S64x1x64x32 : S_.BroadcastsInDim S64x1x64x32 (![] : Fin 0 → Fin S64x1x64x32.rank)
  reducesTo_S64x1x64x32_S_d0_1_2_3 : S64x1x64x32.ReducesTo [0, 1, 2, 3] S_
  h_S_ : 0 < S_.numel
  bcast_S_S64x1x2016 : S_.BroadcastsInDim S64x1x2016 (![] : Fin 0 → Fin S64x1x2016.rank)
  reducesTo_S64x1x2016_S_d0_1_2 : S64x1x2016.ReducesTo [0, 1, 2] S_
  bcast_S_S256 : S_.BroadcastsInDim S256 (![] : Fin 0 → Fin S256.rank)
  reducesTo_S256_S_d0 : S256.ReducesTo [0] S_
  bcast_S_S4x256 : S_.BroadcastsInDim S4x256 (![] : Fin 0 → Fin S4x256.rank)
  reducesTo_S4x256_S_d0_1 : S4x256.ReducesTo [0, 1] S_

variable [Facts]

def fn_part1 {F : FTy → Type} [FloatOps F] (main_arg4 : FVec F S256 .f32) (main_arg5 : FVec F S256 .f32) (main_arg6 : FVec F S4x256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S4x256 .f32 := Host.absf main_arg6
  let main_cst_10 : FVec F S_ .f32 := constant S_ .f32 0x7F800000#32
  let main_v30 : FVec F S4x256 .f32 := broadcastInDim S4x256 ![] bcast_S_S4x256 main_cst_10
  let main_v31 : IVec S4x256 1 := cmpf .olt main_v29 main_v30
  let main_c_11 : IVec S_ 1 := constantI S_ 1 1#1
  let main_v32 : IVec S_ 1 := (fun x v => Host.reduce IntOp.andi x v reducesTo_S4x256_S_d0_1 h_S_) main_v31 main_c_11
  let main_v33 : IVec S_ 1 := andi main_v28 main_v32
  main_v33

def fn {F : FTy → Type} [FloatOps F] (main_arg0 : FVec F S64x1x64x32 .f32) (main_arg1 : FVec F S64x1x2016 .f32) (main_arg2 : FVec F S256 .f32) (main_arg3 : FVec F S256 .f32) (main_arg4 : FVec F S256 .f32) (main_arg5 : FVec F S256 .f32) (main_arg6 : FVec F S4x256 .f32) : IVec S_ 1 :=
  let main_v0 : FVec F S64x1x64x32 .f32 := Host.absf main_arg0
  let main_cst : FVec F S_ .f32 := constant S_ .f32 0x7F800000#32
  let main_v1 : FVec F S64x1x64x32 .f32 := broadcastInDim S64x1x64x32 ![] bcast_S_S64x1x64x32 main_cst
  let main_v2 : IVec S64x1x64x32 1 := cmpf .olt main_v0 main_v1
  let main_c : IVec S_ 1 := constantI S_ 1 1#1
  let main_v3 : IVec S_ 1 := (fun x v => Host.reduce IntOp.andi x v reducesTo_S64x1x64x32_S_d0_1_2_3 h_S_) main_v2 main_c
  let main_v4 : FVec F S64x1x2016 .f32 := Host.absf main_arg1
  let main_cst_0 : FVec F S_ .f32 := constant S_ .f32 0x7F800000#32
  let main_v5 : FVec F S64x1x2016 .f32 := broadcastInDim S64x1x2016 ![] bcast_S_S64x1x2016 main_cst_0
  let main_v6 : IVec S64x1x2016 1 := cmpf .olt main_v4 main_v5
  let main_c_1 : IVec S_ 1 := constantI S_ 1 1#1
  let main_v7 : IVec S_ 1 := (fun x v => Host.reduce IntOp.andi x v reducesTo_S64x1x2016_S_d0_1_2 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_v13 main_v16
-- ==== Kernel.lean ====
abbrev S64x1x64x32 : Shape := ⟨4, ![64, 1, 64, 32]⟩
abbrev S64x1x2016 : Shape := ⟨3, ![64, 1, 2016]⟩
abbrev S256 : Shape := ⟨1, ![256]⟩
abbrev S4x256 : Shape := ⟨2, ![4, 256]⟩
abbrev S64 : Shape := ⟨1, ![64]⟩
abbrev S2079 : Shape := ⟨1, ![2079]⟩
abbrev S64x64x32 : Shape := ⟨3, ![64, 64, 32]⟩
abbrev S64x2016 : Shape := ⟨2, ![64, 2016]⟩
abbrev S_ : Shape := ⟨0, ![]⟩
abbrev S64x1 : Shape := ⟨2, ![64, 1]⟩
abbrev S64x256 : Shape := ⟨2, ![64, 256]⟩
abbrev S2079x1 : Shape := ⟨2, ![2079, 1]⟩
abbrev S2079x256 : Shape := ⟨2, ![2079, 256]⟩
abbrev S1x256 : Shape := ⟨2, ![1, 256]⟩
abbrev S64x32x256 : Shape := ⟨3, ![64, 32, 256]⟩
abbrev S64x1x256 : Shape := ⟨3, ![64, 1, 256]⟩
abbrev S64x33x256 : Shape := ⟨3, ![64, 33, 256]⟩
abbrev S2112x256 : Shape := ⟨2, ![2112, 256]⟩
abbrev S4191x256 : Shape := ⟨2, ![4191, 256]⟩
abbrev S64x64x1 : Shape := ⟨3, ![64, 64, 1]⟩
abbrev S64x64x33 : Shape := ⟨3, ![64, 64, 33]⟩
abbrev S64x2112 : Shape := ⟨2, ![64, 2112]⟩
abbrev S64x2079 : Shape := ⟨2, ![64, 2079]⟩
abbrev S1x2079 : Shape := ⟨2, ![1, 2079]⟩
abbrev S64x4191 : Shape := ⟨2, ![64, 4191]⟩
abbrev S64x4191x1 : Shape := ⟨3, ![64, 4191, 1]⟩
abbrev S64x4191x256 : Shape := ⟨3, ![64, 4191, 256]⟩
abbrev S1x4191x1 : Shape := ⟨3, ![1, 4191, 1]⟩
abbrev S1x4191x256 : Shape := ⟨3, ![1, 4191, 256]⟩
abbrev S4191x1 : Shape := ⟨2, ![4191, 1]⟩

abbrev nBuf : Space → Nat
  | .hbm => 68
  | .vmem => 6
  | .smem => 0
  | _ => 0

abbrev bufTy : (tb : Table) → Fin (tcTables nBuf tb) → BufTy
  | .hbm, ⟨0, _⟩ => ⟨S64x1x64x32, .f32⟩
  | .hbm, ⟨1, _⟩ => ⟨S64x1x2016, .f32⟩
  | .hbm, ⟨2, _⟩ => ⟨S256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S4x256, .f32⟩
  | .hbm, ⟨7, _⟩ => ⟨S64, .i32⟩
  | .hbm, ⟨8, _⟩ => ⟨S2079, .i32⟩
  | .hbm, ⟨9, _⟩ => ⟨S2079, .i1⟩
  | .hbm, ⟨10, _⟩ => ⟨S2079, .i32⟩
  | .hbm, ⟨11, _⟩ => ⟨S64x64x32, .f32⟩
  | .hbm, ⟨12, _⟩ => ⟨S64x2016, .f32⟩
  | .hbm, ⟨13, _⟩ => ⟨S_, .i32⟩
  | .hbm, ⟨14, _⟩ => ⟨S64, .i32⟩
  | .hbm, ⟨15, _⟩ => ⟨S64, .i1⟩
  | .hbm, ⟨16, _⟩ => ⟨S_, .i32⟩
  | .hbm, ⟨17, _⟩ => ⟨S64, .i32⟩
  | .hbm, ⟨18, _⟩ => ⟨S64, .i32⟩
  | .hbm, ⟨19, _⟩ => ⟨S64, .i32⟩
  | .hbm, ⟨20, _⟩ => ⟨S64x1, .i32⟩
  | .hbm, ⟨21, _⟩ => ⟨S64x256, .f32⟩
  | .hbm, ⟨22, _⟩ => ⟨S_, .i32⟩
  | .hbm, ⟨23, _⟩ => ⟨S2079, .i32⟩
  | .hbm, ⟨24, _⟩ => ⟨S2079, .i1⟩
  | .hbm, ⟨25, _⟩ => ⟨S_, .i32⟩
  | .hbm, ⟨26, _⟩ => ⟨S2079, .i32⟩
  | .hbm, ⟨27, _⟩ => ⟨S2079, .i32⟩
  | .hbm, ⟨28, _⟩ => ⟨S2079, .i32⟩
  | .hbm, ⟨29, _⟩ => ⟨S2079x1, .i32⟩
  | .hbm, ⟨30, _⟩ => ⟨S2079x256, .f32⟩
  | .hbm, ⟨31, _⟩ => ⟨S1x256, .f32⟩
  | .hbm, ⟨32, _⟩ => ⟨S64x32x256, .f32⟩
  | .hbm, ⟨33, _⟩ => ⟨S64x1x256, .f32⟩
  | .hbm, ⟨34, _⟩ => ⟨S64x33x256, .f32⟩
  | .hbm, ⟨35, _⟩ => ⟨S2112x256, .f32⟩
  | .hbm, ⟨36, _⟩ => ⟨S1x256, .f32⟩
  | .hbm, ⟨37, _⟩ => ⟨S2079x256, .f32⟩
  | .hbm, ⟨38, _⟩ => ⟨S2079x1, .i1⟩
  | .hbm, ⟨39, _⟩ => ⟨S2079x256, .i1⟩
  | .hbm, ⟨40, _⟩ => ⟨S2079x256, .f32⟩
  | .hbm, ⟨41, _⟩ => ⟨S4191x256, .f32⟩
  | .hbm, ⟨42, _⟩ => ⟨S1x256, .f32⟩
  | .hbm, ⟨43, _⟩ => ⟨S2112x256, .f32⟩
  | .hbm, ⟨44, _⟩ => ⟨S1x256, .f32⟩
  | .hbm, ⟨45, _⟩ => ⟨S2079x256, .f32⟩
  | .hbm, ⟨46, _⟩ => ⟨S4191x256, .f32⟩
  | .hbm, ⟨47, _⟩ => ⟨S_, .f32⟩
  | .hbm, ⟨48, _⟩ => ⟨S64x64x1, .f32⟩
  | .hbm, ⟨49, _⟩ => ⟨S64x64x33, .f32⟩
  | .hbm, ⟨50, _⟩ => ⟨S64x2112, .f32⟩
  | .hbm, ⟨51, _⟩ => ⟨S_, .i32⟩
  | .hbm, ⟨52, _⟩ => ⟨S2079, .i32⟩
  | .hbm, ⟨53, _⟩ => ⟨S2079, .i1⟩
  | .hbm, ⟨54, _⟩ => ⟨S_, .i32⟩
  | .hbm, ⟨55, _⟩ => ⟨S2079, .i32⟩
  | .hbm, ⟨56, _⟩ => ⟨S2079, .i32⟩
  | .hbm, ⟨57, _⟩ => ⟨S2079, .i32⟩
  | .hbm, ⟨58, _⟩ => ⟨S2079x1, .i32⟩
  | .hbm, ⟨59, _⟩ => ⟨S64x2079, .f32⟩
  | .hbm, ⟨60, _⟩ => ⟨S1x2079, .i1⟩
  | .hbm, ⟨61, _⟩ => ⟨S_, .f32⟩
  | .hbm, ⟨62, _⟩ => ⟨S64x2079, .f32⟩
  | .hbm, ⟨63, _⟩ => ⟨S64x2079, .i1⟩
  | .hbm, ⟨64, _⟩ => ⟨S64x2079, .f32⟩
  | .hbm, ⟨65, _⟩ => ⟨S64x4191, .f32⟩
  | .hbm, ⟨66, _⟩ => ⟨S64x4191x1, .f32⟩
  | .hbm, ⟨67, _⟩ => ⟨S64x4191x256, .f32⟩
  | .local _ .vmem, ⟨0, _⟩ => ⟨S1x4191x1, .f32⟩
  | .local _ .vmem, ⟨1, _⟩ => ⟨S1x4191x1, .f32⟩
  | .local _ .vmem, ⟨2, _⟩ => ⟨S4191x256, .f32⟩
  | .local _ .vmem, ⟨3, _⟩ => ⟨S4191x256, .f32⟩
  | .local _ .vmem, ⟨4, _⟩ => ⟨S1x4191x256, .f32⟩
  | .local _ .vmem, ⟨5, _⟩ => ⟨S1x4191x256, .f32⟩
  | _, _ => ⟨S64x1x64x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_c_0 : Ref sig .tc := ⟨.hbm, 8, rfl⟩
abbrev main_c_1 : Ref sig .tc := ⟨.hbm, 9, rfl⟩
abbrev main_c_2 : Ref sig .tc := ⟨.hbm, 10, rfl⟩
abbrev main_v0 : Ref sig .tc := ⟨.hbm, 11, rfl⟩
abbrev main_v1 : Ref sig .tc := ⟨.hbm, 12, rfl⟩
abbrev main_c_3 : Ref sig .tc := ⟨.hbm, 13, rfl⟩
abbrev main_v2 : Ref sig .tc := ⟨.hbm, 14, rfl⟩
abbrev main_v3 : Ref sig .tc := ⟨.hbm, 15, rfl⟩
abbrev main_c_4 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c_5 : Ref sig .tc := ⟨.hbm, 22, rfl⟩
abbrev main_v9 : Ref sig .tc := ⟨.hbm, 23, rfl⟩
abbrev main_v10 : Ref sig .tc := ⟨.hbm, 24, rfl⟩
abbrev main_c_6 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_call0_v0 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_c_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_9 : Ref sig .tc := ⟨.hbm, 61, rfl⟩
abbrev main_v42 : Ref sig .tc := ⟨.hbm, 62, rfl⟩
abbrev main_call1_v0 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4191x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4191x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4191x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x4191x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S64x1x64x32_S64x64x32 : S64x1x64x32.ShapeCasts S64x64x32
  shapeCasts_S64x1x2016_S64x2016 : S64x1x2016.ShapeCasts S64x2016
  bcast_S_S64 : S_.BroadcastsInDim S64 (![] : Fin 0 → Fin S64.rank)
  bcast_S64_S64x1_0 : S64.BroadcastsInDim S64x1 (![0] : Fin 1 → Fin S64x1.rank)
  bcast_S_S2079 : S_.BroadcastsInDim S2079 (![] : Fin 0 → Fin S2079.rank)
  bcast_S2079_S2079x1_0 : S2079.BroadcastsInDim S2079x1 (![0] : Fin 1 → Fin S2079x1.rank)
  bcast_S256_S1x256_1 : S256.BroadcastsInDim S1x256 (![1] : Fin 1 → Fin S1x256.rank)
  bcast_S1x256_S64x32x256_1_2 : S1x256.BroadcastsInDim S64x32x256 (![1, 2] : Fin 2 → Fin S64x32x256.rank)
  bcast_S64x256_S64x1x256_0_2 : S64x256.BroadcastsInDim S64x1x256 (![0, 2] : Fin 2 → Fin S64x1x256.rank)
  concatenates_S64x32x256_S64x1x256_S64x33x256_d1 : Shape.Concatenates [S64x32x256, S64x1x256] S64x33x256 1
  shapeCasts_S64x33x256_S2112x256 : S64x33x256.ShapeCasts S2112x256
  bcast_S1x256_S2079x256_0_1 : S1x256.BroadcastsInDim S2079x256 (![0, 1] : Fin 2 → Fin S2079x256.rank)
  bcast_S2079x1_S2079x256_0_1 : S2079x1.BroadcastsInDim S2079x256 (![0, 1] : Fin 2 → Fin S2079x256.rank)
  concatenates_S2112x256_S2079x256_S4191x256_d0 : Shape.Concatenates [S2112x256, S2079x256] S4191x256 0
  bcast_S1x256_S2112x256_0_1 : S1x256.BroadcastsInDim S2112x256 (![0, 1] : Fin 2 → Fin S2112x256.rank)
  bcast_S_S64x64x1 : S_.BroadcastsInDim S64x64x1 (![] : Fin 0 → Fin S64x64x1.rank)
  concatenates_S64x64x32_S64x64x1_S64x64x33_d2 : Shape.Concatenates [S64x64x32, S64x64x1] S64x64x33 2
  shapeCasts_S64x64x33_S64x2112 : S64x64x33.ShapeCasts S64x2112
  bcast_S2079_S1x2079_1 : S2079.BroadcastsInDim S1x2079 (![1] : Fin 1 → Fin S1x2079.rank)
  bcast_S_S64x2079 : S_.BroadcastsInDim S64x2079 (![] : Fin 0 → Fin S64x2079.rank)
  bcast_S1x2079_S64x2079_0_1 : S1x2079.BroadcastsInDim S64x2079 (![0, 1] : Fin 2 → Fin S64x2079.rank)
  concatenates_S64x2112_S64x2079_S64x4191_d1 : Shape.Concatenates [S64x2112, S64x2079] S64x4191 1
  bcast_S64x4191_S64x4191x1_0_1 : S64x4191.BroadcastsInDim S64x4191x1 (![0, 1] : Fin 2 → Fin S64x4191x1.rank)
  inb_S1x4191x1_S1x4191x1_0_0_0 : ∀ a, (![0, 0, 0] : Fin 3 → Nat) a + S1x4191x1.size a ≤ S1x4191x1.size a
  h_S1x4191x1 : 0 < S1x4191x1.numel
  shapeCasts_S1x4191x1_S4191x1 : S1x4191x1.ShapeCasts S4191x1
  inb_S4191x256_S4191x256_0_0 : ∀ a, (![0, 0] : Fin 2 → Nat) a + S4191x256.size a ≤ S4191x256.size a
  h_S4191x256 : 0 < S4191x256.numel
  shapeCasts_S4191x256_S4191x256 : S4191x256.ShapeCasts S4191x256
  broadcasts_S4191x1_S4191x256 : S4191x1.Broadcasts S4191x256
  inb_S1x4191x256_S1x4191x256_0_0_0 : ∀ a, (![0, 0, 0] : Fin 3 → Nat) a + S1x4191x256.size a ≤ S1x4191x256.size a
  h_S1x4191x256 : 0 < S1x4191x256.numel
  shapeCasts_S1x4191x256_S4191x256 : S1x4191x256.ShapeCasts S4191x256
  shapeCasts_S4191x256_S1x4191x256 : S4191x256.ShapeCasts S1x4191x256
  gather_S4x256_S64x1_S64x256_1_0_n_n_0_1_1256_wf : GatherDims.WF S4x256 S64x1 S64x256 [1] [0] [] [0] [] 1 ![1, 256]
  gather_S4x256_S2079x1_S2079x256_1_0_n_n_0_1_1256_wf : GatherDims.WF S4x256 S2079x1 S2079x256 [1] [0] [] [0] [] 1 ![1, 256]
  gather_S64x2016_S2079x1_S64x2079_0_1_n_n_1_1_641_wf : GatherDims.WF S64x2016 S2079x1 S64x2079 [0] [1] [] [1] [] 1 ![64, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4191x1.size a ≤ S64x4191x1.size a
  hwx0_0 : ∀ i : grid0.Coords, EltTy.bits .f32 = 32 ∨ (Rect.block (s := S64x4191x1) S1x4191x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4191x256.size a ≤ S4191x256.size a
  hwx0_1 : ∀ i : grid0.Coords, EltTy.bits .f32 = 32 ∨ (Rect.block (s := S4191x256) S4191x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4191x256.size a ≤ S4191x256.size a
  hwx0_2 : ∀ i : grid0.Coords, EltTy.bits .f32 = 32 ∨ (Rect.block (s := S4191x256) S4191x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x4191x256.size a ≤ S64x4191x256.size a
  hwx0_3 : ∀ i : grid0.Coords, EltTy.bits .f32 = 32 ∨ (Rect.block (s := S64x4191x256) S1x4191x256.size (cc0_transform_3 i) (hinb0_3 i)).WholeWords (EltTy.packing .f32)

variable [Facts₀]

def gather_S4x256_S64x1_S64x256_1_0_n_n_0_1_1256 : GatherDims S4x256 S64x1 S64x256 where
  offsetDims := [1]
  collapsedSliceDims := [0]
  operandBatchingDims := []
  startIndicesBatchingDims := []
  startIndexMap := [0]
  indexVectorDim := 1
  sliceSizes := ![1, 256]
  wf := gather_S4x256_S64x1_S64x256_1_0_n_n_0_1_1256_wf
def gather_S4x256_S2079x1_S2079x256_1_0_n_n_0_1_1256 : GatherDims S4x256 S2079x1 S2079x256 where
  offsetDims := [1]
  collapsedSliceDims := [0]
  operandBatchingDims := []
  startIndicesBatchingDims := []
  startIndexMap := [0]
  indexVectorDim := 1
  sliceSizes := ![1, 256]
  wf := gather_S4x256_S2079x1_S2079x256_1_0_n_n_0_1_1256_wf
def gather_S64x2016_S2079x1_S64x2079_0_1_n_n_1_1_641 : GatherDims S64x2016 S2079x1 S64x2079 where
  offsetDims := [0]
  collapsedSliceDims := [1]
  operandBatchingDims := []
  startIndicesBatchingDims := []
  startIndexMap := [1]
  indexVectorDim := 1
  sliceSizes := ![64, 1]
  wf := gather_S64x2016_S2079x1_S64x2079_0_1_n_n_1_1_641_wf

abbrev win0_0 : Pipeline.Window sig grid0 :=
  Pipeline.Window.ofSpec (Memref.whole main_v45) S1x4191x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v30) S4191x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v25) S4191x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v46) S1x4191x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x1x64x32 : Shape := ⟨4, ![64, 1, 64, 32]⟩
abbrev S64x1x2016 : Shape := ⟨3, ![64, 1, 2016]⟩
abbrev S256 : Shape := ⟨1, ![256]⟩
abbrev S4x256 : Shape := ⟨2, ![4, 256]⟩
abbrev S64 : Shape := ⟨1, ![64]⟩
abbrev S2079 : Shape := ⟨1, ![2079]⟩
abbrev S64x64x32 : Shape := ⟨3, ![64, 64, 32]⟩
abbrev S64x2016 : Shape := ⟨2, ![64, 2016]⟩
abbrev S64x64x32x1 : Shape := ⟨4, ![64, 64, 32, 1]⟩
abbrev S1x1x1x256 : Shape := ⟨4, ![1, 1, 1, 256]⟩
abbrev S64x64x32x256 : Shape := ⟨4, ![64, 64, 32, 256]⟩
abbrev S_ : Shape := ⟨0, ![]⟩
abbrev S64x1 : Shape := ⟨2, ![64, 1]⟩
abbrev S64x256 : Shape := ⟨2, ![64, 256]⟩
abbrev S1x64x1x256 : Shape := ⟨4, ![1, 64, 1, 256]⟩
abbrev S64x64x1x256 : Shape := ⟨4, ![64, 64, 1, 256]⟩
abbrev S64x64x33x256 : Shape := ⟨4, ![64, 64, 33, 256]⟩
abbrev S64x2112x256 : Shape := ⟨3, ![64, 2112, 256]⟩
abbrev S64x2016x1 : Shape := ⟨3, ![64, 2016, 1]⟩
abbrev S1x1x256 : Shape := ⟨3, ![1, 1, 256]⟩
abbrev S64x2016x256 : Shape := ⟨3, ![64, 2016, 256]⟩
abbrev S2079x1 : Shape := ⟨2, ![2079, 1]⟩
abbrev S2079x256 : Shape := ⟨2, ![2079, 256]⟩
abbrev S1x2079x256 : Shape := ⟨3, ![1, 2079, 256]⟩
abbrev S64x2079x256 : Shape := ⟨3, ![64, 2079, 256]⟩
abbrev S64x4191x256 : Shape := ⟨3, ![64, 4191, 256]⟩

abbrev nBuf : Space → Nat
  | .hbm => 66
  | .vmem => 0
  | .smem => 0
  | _ => 0

abbrev bufTy : (tb : Table) → Fin (tcTables nBuf tb) → BufTy
  | .hbm, ⟨0, _⟩ => ⟨S64x1x64x32, .f32⟩
  | .hbm, ⟨1, _⟩ => ⟨S64x1x2016, .f32⟩
  | .hbm, ⟨2, _⟩ => ⟨S256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S4x256, .f32⟩
  | .hbm, ⟨7, _⟩ => ⟨S64, .i32⟩
  | .hbm, ⟨8, _⟩ => ⟨S2079, .i32⟩
  | .hbm, ⟨9, _⟩ => ⟨S2079, .i1⟩
  | .hbm, ⟨10, _⟩ => ⟨S2079, .i32⟩
  | .hbm, ⟨11, _⟩ => ⟨S64x64x32, .f32⟩
  | .hbm, ⟨12, _⟩ => ⟨S64x2016, .f32⟩
  | .hbm, ⟨13, _⟩ => ⟨S64x64x32x1, .f32⟩
  | .hbm, ⟨14, _⟩ => ⟨S1x1x1x256, .f32⟩
  | .hbm, ⟨15, _⟩ => ⟨S64x64x32x256, .f32⟩
  | .hbm, ⟨16, _⟩ => ⟨S64x64x32x256, .f32⟩
  | .hbm, ⟨17, _⟩ => ⟨S64x64x32x256, .f32⟩
  | .hbm, ⟨18, _⟩ => ⟨S1x1x1x256, .f32⟩
  | .hbm, ⟨19, _⟩ => ⟨S64x64x32x256, .f32⟩
  | .hbm, ⟨20, _⟩ => ⟨S64x64x32x256, .f32⟩
  | .hbm, ⟨21, _⟩ => ⟨S_, .i32⟩
  | .hbm, ⟨22, _⟩ => ⟨S64, .i32⟩
  | .hbm, ⟨23, _⟩ => ⟨S64, .i1⟩
  | .hbm, ⟨24, _⟩ => ⟨S_, .i32⟩
  | .hbm, ⟨25, _⟩ => ⟨S64, .i32⟩
  | .hbm, ⟨26, _⟩ => ⟨S64, .i32⟩
  | .hbm, ⟨27, _⟩ => ⟨S64, .i32⟩
  | .hbm, ⟨28, _⟩ => ⟨S64x1, .i32⟩
  | .hbm, ⟨29, _⟩ => ⟨S64x256, .f32⟩
  | .hbm, ⟨30, _⟩ => ⟨S1x64x1x256, .f32⟩
  | .hbm, ⟨31, _⟩ => ⟨S64x64x1x256, .f32⟩
  | .hbm, ⟨32, _⟩ => ⟨S64x64x33x256, .f32⟩
  | .hbm, ⟨33, _⟩ => ⟨S64x2112x256, .f32⟩
  | .hbm, ⟨34, _⟩ => ⟨S64x2016x1, .f32⟩
  | .hbm, ⟨35, _⟩ => ⟨S1x1x256, .f32⟩
  | .hbm, ⟨36, _⟩ => ⟨S64x2016x256, .f32⟩
  | .hbm, ⟨37, _⟩ => ⟨S64x2016x256, .f32⟩
  | .hbm, ⟨38, _⟩ => ⟨S64x2016x256, .f32⟩
  | .hbm, ⟨39, _⟩ => ⟨S1x1x256, .f32⟩
  | .hbm, ⟨40, _⟩ => ⟨S64x2016x256, .f32⟩
  | .hbm, ⟨41, _⟩ => ⟨S64x2016x256, .f32⟩
  | .hbm, ⟨42, _⟩ => ⟨S_, .i32⟩
  | .hbm, ⟨43, _⟩ => ⟨S2079, .i32⟩
  | .hbm, ⟨44, _⟩ => ⟨S2079, .i1⟩
  | .hbm, ⟨45, _⟩ => ⟨S_, .i32⟩
  | .hbm, ⟨46, _⟩ => ⟨S2079, .i32⟩
  | .hbm, ⟨47, _⟩ => ⟨S2079, .i32⟩
  | .hbm, ⟨48, _⟩ => ⟨S2079, .i32⟩
  | .hbm, ⟨49, _⟩ => ⟨S2079x1, .i32⟩
  | .hbm, ⟨50, _⟩ => ⟨S2079x256, .f32⟩
  | .hbm, ⟨51, _⟩ => ⟨S2079x1, .i1⟩
  | .hbm, ⟨52, _⟩ => ⟨S1x2079x256, .f32⟩
  | .hbm, ⟨53, _⟩ => ⟨S_, .i32⟩
  | .hbm, ⟨54, _⟩ => ⟨S2079, .i32⟩
  | .hbm, ⟨55, _⟩ => ⟨S2079, .i1⟩
  | .hbm, ⟨56, _⟩ => ⟨S_, .i32⟩
  | .hbm, ⟨57, _⟩ => ⟨S2079, .i32⟩
  | .hbm, ⟨58, _⟩ => ⟨S2079, .i32⟩
  | .hbm, ⟨59, _⟩ => ⟨S2079, .i32⟩
  | .hbm, ⟨60, _⟩ => ⟨S2079x1, .i32⟩
  | .hbm, ⟨61, _⟩ => ⟨S64x2079x256, .f32⟩
  | .hbm, ⟨62, _⟩ => ⟨S64x2079x256, .i1⟩
  | .hbm, ⟨63, _⟩ => ⟨S64x2079x256, .f32⟩
  | .hbm, ⟨64, _⟩ => ⟨S64x2079x256, .f32⟩
  | .hbm, ⟨65, _⟩ => ⟨S64x4191x256, .f32⟩
  | _, _ => ⟨S64x1x64x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_c_0 : Ref sig .tc := ⟨.hbm, 8, rfl⟩
abbrev main_c_1 : Ref sig .tc := ⟨.hbm, 9, rfl⟩
abbrev main_c_2 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c_3 : Ref sig .tc := ⟨.hbm, 21, rfl⟩
abbrev main_v10 : Ref sig .tc := ⟨.hbm, 22, rfl⟩
abbrev main_v11 : Ref sig .tc := ⟨.hbm, 23, rfl⟩
abbrev main_c_4 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c_5 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_c_7 : Ref sig .tc := ⟨.hbm, 53, rfl⟩
abbrev main_v38 : Ref sig .tc := ⟨.hbm, 54, rfl⟩
abbrev main_v39 : Ref sig .tc := ⟨.hbm, 55, rfl⟩
abbrev main_c_8 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_call0_v0 : Ref sig .tc := ⟨.hbm, 62, rfl⟩
abbrev main_call0_v1 : Ref sig .tc := ⟨.hbm, 63, rfl⟩
abbrev main_v45 : Ref sig .tc := ⟨.hbm, 64, rfl⟩
abbrev main_v46 : Ref sig .tc := ⟨.hbm, 65, rfl⟩

abbrev nD : Nat := 1
abbrev τ : Topo := Topo.v7x

variable {F : FTy → Type} [FloatOps F]

class Facts₀ : Prop where
  shapeCasts_S64x1x64x32_S64x64x32 : S64x1x64x32.ShapeCasts S64x64x32
  shapeCasts_S64x1x2016_S64x2016 : S64x1x2016.ShapeCasts S64x2016
  bcast_S64x64x32_S64x64x32x1_0_1_2 : S64x64x32.BroadcastsInDim S64x64x32x1 (![0, 1, 2] : Fin 3 → Fin S64x64x32x1.rank)
  bcast_S256_S1x1x1x256_3 : S256.BroadcastsInDim S1x1x1x256 (![3] : Fin 1 → Fin S1x1x1x256.rank)
  bcast_S64x64x32x1_S64x64x32x256_0_1_2_3 : S64x64x32x1.BroadcastsInDim S64x64x32x256 (![0, 1, 2, 3] : Fin 4 → Fin S64x64x32x256.rank)
  bcast_S1x1x1x256_S64x64x32x256_0_1_2_3 : S1x1x1x256.BroadcastsInDim S64x64x32x256 (![0, 1, 2, 3] : Fin 4 → Fin S64x64x32x256.rank)
  bcast_S_S64 : S_.BroadcastsInDim S64 (![] : Fin 0 → Fin S64.rank)
  bcast_S64_S64x1_0 : S64.BroadcastsInDim S64x1 (![0] : Fin 1 → Fin S64x1.rank)
  bcast_S64x256_S1x64x1x256_1_3 : S64x256.BroadcastsInDim S1x64x1x256 (![1, 3] : Fin 2 → Fin S1x64x1x256.rank)
  bcast_S1x64x1x256_S64x64x1x256_0_1_2_3 : S1x64x1x256.BroadcastsInDim S64x64x1x256 (![0, 1, 2, 3] : Fin 4 → Fin S64x64x1x256.rank)
  concatenates_S64x64x32x256_S64x64x1x256_S64x64x33x256_d2 : Shape.Concatenates [S64x64x32x256, S64x64x1x256] S64x64x33x256 2
  shapeCasts_S64x64x33x256_S64x2112x256 : S64x64x33x256.ShapeCasts S64x2112x256
  bcast_S64x2016_S64x2016x1_0_1 : S64x2016.BroadcastsInDim S64x2016x1 (![0, 1] : Fin 2 → Fin S64x2016x1.rank)
  bcast_S256_S1x1x256_2 : S256.BroadcastsInDim S1x1x256 (![2] : Fin 1 → Fin S1x1x256.rank)
  bcast_S64x2016x1_S64x2016x256_0_1_2 : S64x2016x1.BroadcastsInDim S64x2016x256 (![0, 1, 2] : Fin 3 → Fin S64x2016x256.rank)
  bcast_S1x1x256_S64x2016x256_0_1_2 : S1x1x256.BroadcastsInDim S64x2016x256 (![0, 1, 2] : Fin 3 → Fin S64x2016x256.rank)
  bcast_S_S2079 : S_.BroadcastsInDim S2079 (![] : Fin 0 → Fin S2079.rank)
  bcast_S2079_S2079x1_0 : S2079.BroadcastsInDim S2079x1 (![0] : Fin 1 → Fin S2079x1.rank)
  bcast_S2079x256_S1x2079x256_1_2 : S2079x256.BroadcastsInDim S1x2079x256 (![1, 2] : Fin 2 → Fin S1x2079x256.rank)
  bcast_S2079x1_S64x2079x256_1_2 : S2079x1.BroadcastsInDim S64x2079x256 (![1, 2] : Fin 2 → Fin S64x2079x256.rank)
  bcast_S1x2079x256_S64x2079x256_0_1_2 : S1x2079x256.BroadcastsInDim S64x2079x256 (![0, 1, 2] : Fin 3 → Fin S64x2079x256.rank)
  concatenates_S64x2112x256_S64x2079x256_S64x4191x256_d1 : Shape.Concatenates [S64x2112x256, S64x2079x256] S64x4191x256 1
  gather_S4x256_S64x1_S64x256_1_0_n_n_0_1_1256_wf : GatherDims.WF S4x256 S64x1 S64x256 [1] [0] [] [0] [] 1 ![1, 256]
  gather_S4x256_S2079x1_S2079x256_1_0_n_n_0_1_1256_wf : GatherDims.WF S4x256 S2079x1 S2079x256 [1] [0] [] [0] [] 1 ![1, 256]
  gather_S64x2016x256_S2079x1_S64x2079x256_02_1_n_n_1_1_641256_wf : GatherDims.WF S64x2016x256 S2079x1 S64x2079x256 [0, 2] [1] [] [1] [] 1 ![64, 1, 256]

variable [Facts₀]

def gather_S4x256_S64x1_S64x256_1_0_n_n_0_1_1256 : GatherDims S4x256 S64x1 S64x256 where
  offsetDims := [1]
  collapsedSliceDims := [0]
  operandBatchingDims := []
  startIndicesBatchingDims := []
  startIndexMap := [0]
  indexVectorDim := 1
  sliceSizes := ![1, 256]
  wf := gather_S4x256_S64x1_S64x256_1_0_n_n_0_1_1256_wf
def gather_S4x256_S2079x1_S2079x256_1_0_n_n_0_1_1256 : GatherDims S4x256 S2079x1 S2079x256 where
  offsetDims := [1]
  collapsedSliceDims := [0]
  operandBatchingDims := []
  startIndicesBatchingDims := []
  startIndexMap := [0]
  indexVectorDim := 1
  sliceSizes := ![1, 256]
  wf := gather_S4x256_S2079x1_S2079x256_1_0_n_n_0_1_1256_wf
def gather_S64x2016x256_S2079x1_S64x2079x256_02_1_n_n_1_1_641256 : GatherDims S64x2016x256 S2079x1 S64x2079x256 where
  offsetDims := [0, 2]
  collapsedSliceDims := [1]
  operandBatchingDims := []
  startIndicesBatchingDims := []
  startIndexMap := [1]
  indexVectorDim := 1
  sliceSizes := ![64, 1, 256]
  wf := gather_S64x2016x256_S2079x1_S64x2079x256_02_1_n_n_1_1_641256_wf

class Facts : Prop extends Facts₀ where

variable [Facts]
-- ==== Proof.Spec.lean ====
/-
  The value both programs compute, written once over literal-size coordinates.

  The output has shape [64, 4191, 256]; write an index as (b, p, d).
  * Positions p < 2112 = 64 · 33 are the container sequence: p = 33 · c + r with column c = p / 33 and slot
    r = p % 33. A slot r < 32 holds the embedded scalar bay[b, 0, c, r] · Wc[d] + bc[d]; the last slot r = 32 holds the
    column's stop-token row colTok[c, d].
  * Positions p ≥ 2112 are the T sequence: with q = p − 2112 < 2079, a static flag tokc[q] says whether q is a token
    position; there the value is the token row tokSeq[q, d], elsewhere it is T[b, 0, dataPos q] · Wt[d] + bt[d], where
    dataPos q is the static data index of q, a 32-bit word read signed and clamped into 0 … 2015 as a gather clamps it.

  The token rows colTok and tokSeq, the flags tokc and the index column dcol come from static tables; here they are
  parameters, so nothing below depends on what the tables hold.

  The reference evaluates this function directly (Gat). The kernel instead multiplies a per-(b, p) scalar srcAt by a
  per-(p, d) weight wrowAt and adds a per-(p, d) row tblAt, where srcAt is 0 at every stop slot and token position and
  tblAt carries the token row there; the two agree because 0 · w + t = t on the extended reals (sum_eq).
-/
import Idealize.ShloMosaic.PureOps.Ideal
import Idealize.ShloMosaic.Lib.ValueIdx

noncomputable section

namespace Cert.Spec

open Idealize.ShloMosaic Idealize.ShloMosaic.ValueIdx

/-- The static data index of T-sequence position q: the index word read signed, clamped into 0 … 2015. -/
def dataPos (dcol : (⟨2, ![2079, 1]⟩ : Shape).Idx → BitVec 32) (q : Fin 2079) : Fin 2016 :=
  ⟨min (dcol (ix2 q 0)).toInt.toNat 2015, by omega⟩

/-- The column of a container-sequence position. -/
def colOf (p : Fin 4191) (h : p.val < 2112) : Fin 64 := ⟨p.val / 33, by omega⟩

/-- The T-sequence position of an output position past the container sequence. -/
def tPos (p : Fin 4191) (h : ¬ p.val < 2112) : Fin 2079 := ⟨p.val - 2112, by have := p.isLt; omega⟩

variable (bay : (⟨4, ![64, 1, 64, 32]⟩ : Shape).Idx → EReal) (T : (⟨3, ![64, 1, 2016]⟩ : Shape).Idx → EReal)
  (Wc bc Wt bt : (⟨1, ![256]⟩ : Shape).Idx → EReal)
  (colTok : (⟨2, ![64, 256]⟩ : Shape).Idx → EReal) (tokSeq : (⟨2, ![2079, 256]⟩ : Shape).Idx → EReal)
  (tokc : (⟨1, ![2079]⟩ : Shape).Idx → BitVec 1) (dcol : (⟨2, ![2079, 1]⟩ : Shape).Idx → BitVec 32)

/-- The reference's value at (b, p, d). -/
def Gat (b : Fin 64) (p : Fin 4191) (d : Fin 256) : EReal :=
  if h : p.val < 2112 then
    if hr : p.val % 33 < 32 then bay (ix4 b 0 (colOf p h) ⟨p.val % 33, hr⟩) * Wc (ix1 d) + bc (ix1 d)
    else colTok (ix2 (colOf p h) d)
  else
    Scalar.select (tokc (ix1 (tPos p h))) (tokSeq (ix2 (tPos p h) d))
      (T (ix3 b 0 (dataPos dcol (tPos p h))) * Wt (ix1 d) + bt (ix1 d))

/-- The kernel's per-(b, p) scalar: the data where there is data, 0 at a stop slot or token position. -/
def srcAt (b : Fin 64) (p : Fin 4191) : EReal :=
  if h : p.val < 2112 then
    if hr : p.val % 33 < 32 then bay (ix4 b 0 (colOf p h) ⟨p.val % 33, hr⟩) else 0
  else
    Scalar.select (tokc (ix1 (tPos p h))) 0 (T (ix3 b 0 (dataPos dcol (tPos p h))))

/-- The kernel's per-(p, d) weight: Wc on the container sequence, Wt on the T sequence. -/
def wrowAt (p : Fin 4191) (d : Fin 256) : EReal :=
  if p.val < 2112 then Wc (ix1 d) else Wt (ix1 d)

/-- The kernel's per-(p, d) additive row: the bias where there is data, the token row at a stop slot or token
    position. -/
def tblAt (p : Fin 4191) (d : Fin 256) : EReal :=
  if h : p.val < 2112 then
    if p.val % 33 < 32 then bc (ix1 d) else colTok (ix2 (colOf p h) d)
  else
    Scalar.select (tokc (ix1 (tPos p h))) (tokSeq (ix2 (tPos p h) d)) (bt (ix1 d))

/-- The law joining the two sides: scalar · weight + row is the reference's value, because 0 · w + t = t for every
    extended real w, t. -/
theorem sum_eq (b : Fin 64) (p : Fin 4191) (d : Fin 256) :
    srcAt bay T tokc dcol b p * wrowAt Wc Wt p d + tblAt bc bt colTok tokSeq tokc p d
      = Gat bay T Wc bc Wt bt colTok tokSeq tokc dcol b p d := by
  unfold srcAt wrowAt tblAt Gat
  by_cases h : p.val < 2112
  · rw [dif_pos h, if_pos h, dif_pos h, dif_pos h]
    by_cases hr : p.val % 33 < 32
    · rw [dif_pos hr, if_pos hr, dif_pos hr]
    · rw [dif_neg hr, if_neg hr, dif_neg hr, zero_mul, zero_add]
  · rw [dif_neg h, if_neg h, dif_neg h, dif_neg h]
    rcases BitVec.eq_zero_or_eq_one (tokc (ix1 (tPos p h))) with e | e
    · rw [e, select_zero, select_zero, select_zero]
    · rw [e, select_one, select_one, select_one, zero_mul, zero_add]

end Cert.Spec

end
-- ==== Proof.Tables.lean ====
/-
  The static tables of the two programs are the same tables.

  Both printed programs carry the layout of the two sequences as literal tables: the 64 column stop-token ids, and, for
  the 2079 positions of the T sequence, the token ids, the flags "this position is a token" and the data indices. The two
  programs print the same tables entry by entry, so each pair is one function of the position; nothing else about their
  contents is ever used.
-/
import proofs.«180589_j5643587026959_2_alg».proof.KernelIdeal
import proofs.«180589_j5643587026959_2_alg».proof.ReferenceIdeal

namespace Cert.Tables

/-- The column stop-token ids. -/
theorem lit0_eq : Cert.KernelIdeal.lit0 = Cert.ReferenceIdeal.lit0 := rfl

/-- The T sequence's token ids. -/
theorem lit1_eq : Cert.KernelIdeal.lit1 = Cert.ReferenceIdeal.lit1 := rfl

/-- The T sequence's token flags. -/
theorem lit2_eq : Cert.KernelIdeal.lit2 = Cert.ReferenceIdeal.lit2 := rfl

/-- The T sequence's data indices. -/
theorem lit3_eq : Cert.KernelIdeal.lit3 = Cert.ReferenceIdeal.lit3 := rfl

end Cert.Tables
-- ==== Proof.KerDefs.lean ====
/-
  The three tables the host prefix of the kernel's program builds for the one kernel call, written as functions of
  the argument arrays: the per-(b, p) scalar src3, the per-(p, d) weight rows and the per-(p, d) additive rows.
  Each stage mirrors one host operation of the program; the static tables enter only through four named arrays
  (the wrapped column indices, the wrapped token indices, the token flags and the wrapped data-index column), so
  that every later reading can treat them as opaque.
-/
import proofs.«180589_j5643587026959_2_alg».proof.KernelIdeal
import proofs.«180589_j5643587026959_2_alg».proof.Proof.Gen.KernelIdeal
import Idealize.ShloMosaic.PureOps.Ideal

noncomputable section

namespace Cert.KernelIdeal.KerHost

open Cert.KernelIdeal Cert.KernelIdeal.Facts₀ Idealize.ShloMosaic

/-! ## The static index and flag arrays -/

/-- The 64 column token indices, a negative entry wrapped by 4, as a column. -/
def colIdxK : IVec S64x1 32 :=
  broadcastInDim S64x1 ![0] bcast_S64_S64x1_0
    (select (cmpi .slt (fun i => lit0 (S64.rowMajor i) : IVec S64 32) (broadcastInDim S64 ![] bcast_S_S64 (constantI S_ 32 0#32)))
      (addi (fun i => lit0 (S64.rowMajor i) : IVec S64 32) (broadcastInDim S64 ![] bcast_S_S64 (constantI S_ 32 4#32)))
      (fun i => lit0 (S64.rowMajor i) : IVec S64 32))

/-- The 2079 sequence token indices, a negative entry wrapped by 4, as a column. -/
def tokIdxK : IVec S2079x1 32 :=
  broadcastInDim S2079x1 ![0] bcast_S2079_S2079x1_0
    (select (cmpi .slt (fun i => lit1 (S2079.rowMajor i) : IVec S2079 32) (broadcastInDim S2079 ![] bcast_S_S2079 (constantI S_ 32 0#32)))
      (addi (fun i => lit1 (S2079.rowMajor i) : IVec S2079 32) (broadcastInDim S2079 ![] bcast_S_S2079 (constantI S_ 32 4#32)))
      (fun i => lit1 (S2079.rowMajor i) : IVec S2079 32))

/-- The flags: which T-sequence positions are token positions. -/
def tokcK : IVec S2079 1 := fun i => lit2 (S2079.rowMajor i)

/-- The 2079 data indices, a negative entry wrapped by 2016, as a column. -/
def dcolK : IVec S2079x1 32 :=
  broadcastInDim S2079x1 ![0] bcast_S2079_S2079x1_0
    (select (cmpi .slt (fun i => lit3 (S2079.rowMajor i) : IVec S2079 32) (broadcastInDim S2079 ![] bcast_S_S2079 (constantI S_ 32 0#32)))
      (addi (fun i => lit3 (S2079.rowMajor i) : IVec S2079 32) (broadcastInDim S2079 ![] bcast_S_S2079 (constantI S_ 32 2016#32)))
      (fun i => lit3 (S2079.rowMajor i) : IVec S2079 32))

/-! ## The gathered token rows -/

/-- Each column's stop-token row. -/
def colTokK (tok : FVec Ideal S4x256 .f32) : FVec Ideal S64x256 .f32 :=
  Host.gather gather_S4x256_S64x1_S64x256_1_0_n_n_0_1_1256 tok colIdxK

/-- Each T-sequence position's token row. -/
def tokSeqK (tok : FVec Ideal S4x256 .f32) : FVec Ideal S2079x256 .f32 :=
  Host.gather gather_S4x256_S2079x1_S2079x256_1_0_n_n_0_1_1256 tok tokIdxK

/-! ## The weight rows -/

/-- A length-256 vector as every row of an n × 256 table: the two broadcasts the program applies. -/
def rows2112K (w : FVec Ideal S256 .f32) : FVec Ideal S2112x256 .f32 :=
  broadcastInDim S2112x256 ![0, 1] bcast_S1x256_S2112x256_0_1 (broadcastInDim S1x256 ![1] bcast_S256_S1x256_1 w)
def rows2079K (w : FVec Ideal S256 .f32) : FVec Ideal S2079x256 .f32 :=
  broadcastInDim S2079x256 ![0, 1] bcast_S1x256_S2079x256_0_1 (broadcastInDim S1x256 ![1] bcast_S256_S1x256_1 w)

/-- The weight rows: Wc on the container sequence, Wt on the T sequence. -/
def wrowK (Wc Wt : FVec Ideal S256 .f32) : FVec Ideal S4191x256 .f32 :=
  concatenate S4191x256 0 [⟨S2112x256, rows2112K Wc⟩, ⟨S2079x256, rows2079K Wt⟩] concatenates_S2112x256_S2079x256_S4191x256_d0

/-! ## The additive rows -/

/-- The container sequence's rows: per column 32 bias rows then the column's stop-token row, flattened. -/
def contRowsK (bc : FVec Ideal S256 .f32) (colTok : FVec Ideal S64x256 .f32) : FVec Ideal S2112x256 .f32 :=
  shapeCast S2112x256
    (concatenate S64x33x256 1
      [⟨S64x32x256, broadcastInDim S64x32x256 ![1, 2] bcast_S1x256_S64x32x256_1_2 (broadcastInDim S1x256 ![1] bcast_S256_S1x256_1 bc)⟩,
       ⟨S64x1x256, broadcastInDim S64x1x256 ![0, 2] bcast_S64x256_S64x1x256_0_2 colTok⟩]
      concatenates_S64x32x256_S64x1x256_S64x33x256_d1)
    shapeCasts_S64x33x256_S2112x256

/-- The T sequence's rows: the token row where the flag is set, the bias elsewhere. -/
def tRowsK (bt : FVec Ideal S256 .f32) (tokSeq : FVec Ideal S2079x256 .f32) (tokc : IVec S2079 1) : FVec Ideal S2079x256 .f32 :=
  select (broadcastInDim S2079x256 ![0, 1] bcast_S2079x1_S2079x256_0_1 (broadcastInDim S2079x1 ![0] bcast_S2079_S2079x1_0 tokc))
    tokSeq (rows2079K bt)

/-- The additive rows over given token rows and flags. -/
def tblOf (bc bt : FVec Ideal S256 .f32) (colTok : FVec Ideal S64x256 .f32) (tokSeq : FVec Ideal S2079x256 .f32)
    (tokc : IVec S2079 1) : FVec Ideal S4191x256 .f32 :=
  concatenate S4191x256 0 [⟨S2112x256, contRowsK bc colTok⟩, ⟨S2079x256, tRowsK bt tokSeq tokc⟩]
    concatenates_S2112x256_S2079x256_S4191x256_d0

/-- The additive rows the program builds. -/
def tblK (bc bt : FVec Ideal S256 .f32) (tok : FVec Ideal S4x256 .f32) : FVec Ideal S4191x256 .f32 :=
  tblOf bc bt (colTokK tok) (tokSeqK tok) tokcK

/-! ## The per-(b, p) scalar -/

/-- The container sequence's scalars: per column the 32 data then a 0, flattened. -/
def contSrcK (bay : FVec Ideal S64x1x64x32 .f32) : FVec Ideal S64x2112 .f32 :=
  shapeCast S64x2112
    (concatenate S64x64x33 2
      [⟨S64x64x32, shapeCast S64x64x32 bay shapeCasts_S64x1x64x32_S64x64x32⟩,
       ⟨S64x64x1, broadcastInDim S64x64x1 ![] bcast_S_S64x64x1 (constant (F := Ideal) S_ .f32 0x00000000#32)⟩]
      concatenates_S64x64x32_S64x64x1_S64x64x33_d2)
    shapeCasts_S64x64x33_S64x2112

/-- The T sequence's scalars: 0 where the flag is set, the gathered datum elsewhere. -/
def tSrcK (T : FVec Ideal S64x1x2016 .f32) (tokc : IVec S2079 1) (dcol : IVec S2079x1 32) : FVec Ideal S64x2079 .f32 :=
  select (broadcastInDim S64x2079 ![0, 1] bcast_S1x2079_S64x2079_0_1 (broadcastInDim S1x2079 ![1] bcast_S2079_S1x2079_1 tokc))
    (broadcastInDim S64x2079 ![] bcast_S_S64x2079 (constant (F := Ideal) S_ .f32 0x00000000#32))
    (Host.gather gather_S64x2016_S2079x1_S64x2079_0_1_n_n_1_1_641 (shapeCast S64x2016 T shapeCasts_S64x1x2016_S64x2016) dcol)

/-- The scalars over given flags and data-index column, with a trailing unit axis. -/
def src3Of (bay : FVec Ideal S64x1x64x32 .f32) (T : FVec Ideal S64x1x2016 .f32) (tokc : IVec S2079 1) (dcol : IVec S2079x1 32) :
    FVec Ideal S64x4191x1 .f32 :=
  broadcastInDim S64x4191x1 ![0, 1] bcast_S64x4191_S64x4191x1_0_1
    (concatenate S64x4191 1 [⟨S64x2112, contSrcK bay⟩, ⟨S64x2079, tSrcK T tokc dcol⟩] concatenates_S64x2112_S64x2079_S64x4191_d1)

/-- The scalars the program builds. -/
def src3K (bay : FVec Ideal S64x1x64x32 .f32) (T : FVec Ideal S64x1x2016 .f32) : FVec Ideal S64x4191x1 .f32 :=
  src3Of bay T tokcK dcolK

end Cert.KernelIdeal.KerHost

end
-- ==== Proof.RefStages.lean ====
/-
  The reference's output as a composition of named stages that mirror the program:
  * `bayEmb bay Wc bc`      : [64,64,32,256], bay[b,0,c,r] · Wc[d] + bc[d];
  * `colTokR tok`           : [64,256], the token table's rows gathered at the column stop-token indices;
  * `baySeqOf …`            : [64,2112,256], the two concatenated along the slot axis (33 slots) and flattened;
  * `tEmb T Wt bt`          : [64,2016,256], T[b,0,l] · Wt[d] + bt[d];
  * `tokSeqR tok`           : [2079,256], the token table's rows gathered at the T-sequence token indices;
  * `tokcR`                 : [2079] flags, which T-sequence positions hold a token;
  * `dcolR`                 : [2079,1] words, the data index of each T-sequence position (a negative index wrapped
                               by the axis length);
  * `tSeqOf …`              : [64,2079,256], the flag's select between the token row and tEmb gathered at dcol;
  * `refOutOf …`            : [64,4191,256], the two sequences concatenated along the position axis.
  The stages that come from the static tables (colTok, tokSeq, tokc, dcol) are PARAMETERS of `baySeqOf`, `tSeqOf`
  and `refOutOf`; `refOut` instantiates them. Nothing here looks inside a table.
-/
import proofs.«180589_j5643587026959_2_alg».proof.Proof.Gen.ReferenceIdeal

noncomputable section

namespace Cert.ReferenceIdeal.RefRun

open Cert.ReferenceIdeal Cert.ReferenceIdeal.Gen Idealize.ShloMosaic

variable {F : FTy → Type} [FloatOps F]

/-! ## The stages -/

/-- A negative index wrapped by `n`, as a column: `c < 0 ? c + n : c` at every position of a length-64 vector,
    viewed [64,1]. -/
def wrap64 (n : BitVec 32) (c : IVec S64 32) : IVec S64x1 32 :=
  broadcastInDim S64x1 ![0] bcast_S64_S64x1_0
    (select (cmpi .slt c (broadcastInDim S64 ![] bcast_S_S64 (constantI S_ 32 0#32)))
      (addi c (broadcastInDim S64 ![] bcast_S_S64 (constantI S_ 32 n))) c)

/-- The same at length 2079, viewed [2079,1]. -/
def wrap2079 (n : BitVec 32) (c : IVec S2079 32) : IVec S2079x1 32 :=
  broadcastInDim S2079x1 ![0] bcast_S2079_S2079x1_0
    (select (cmpi .slt c (broadcastInDim S2079 ![] bcast_S_S2079 (constantI S_ 32 0#32)))
      (addi c (broadcastInDim S2079 ![] bcast_S_S2079 (constantI S_ 32 n))) c)

/-- The column stop-token rows: row `c` is the token table's row at the `c`-th stop-token index. -/
def colTokR (tok : (⟨S4x256, .f32⟩ : BufTy).Contents (Elt F)) : (⟨S64x256, .f32⟩ : BufTy).Contents (Elt F) :=
  Host.gather gather_S4x256_S64x1_S64x256_1_0_n_n_0_1_1256 tok (wrap64 4#32 (fun i => lit0 (S64.rowMajor i)))

/-- The T-sequence token rows: row `q` is the token table's row at the `q`-th token index. -/
def tokSeqR (tok : (⟨S4x256, .f32⟩ : BufTy).Contents (Elt F)) : (⟨S2079x256, .f32⟩ : BufTy).Contents (Elt F) :=
  Host.gather gather_S4x256_S2079x1_S2079x256_1_0_n_n_0_1_1256 tok (wrap2079 4#32 (fun i => lit1 (S2079.rowMajor i)))

/-- The T-sequence token flags. -/
def tokcR : IVec S2079 1 := fun i => lit2 (S2079.rowMajor i)

/-- The T-sequence data indices, wrapped by 2016, as a column. -/
def dcolR : IVec S2079x1 32 := wrap2079 2016#32 (fun i => lit3 (S2079.rowMajor i))

/-- bay[b,0,c,r] · Wc[d] + bc[d]. -/
def bayEmb (bay : (⟨S64x1x64x32, .f32⟩ : BufTy).Contents (Elt F)) (Wc bc : (⟨S256, .f32⟩ : BufTy).Contents (Elt F)) : (⟨S64x64x32x256, .f32⟩ : BufTy).Contents (Elt F) :=
  addf
    (mulf
      (broadcastInDim S64x64x32x256 ![0, 1, 2, 3] bcast_S64x64x32x1_S64x64x32x256_0_1_2_3
        (broadcastInDim S64x64x32x1 ![0, 1, 2] bcast_S64x64x32_S64x64x32x1_0_1_2
          (shapeCast S64x64x32 bay shapeCasts_S64x1x64x32_S64x64x32)))
      (broadcastInDim S64x64x32x256 ![0, 1, 2, 3] bcast_S1x1x1x256_S64x64x32x256_0_1_2_3
        (broadcastInDim S1x1x1x256 ![3] bcast_S256_S1x1x1x256_3 Wc)))
    (broadcastInDim S64x64x32x256 ![0, 1, 2, 3] bcast_S1x1x1x256_S64x64x32x256_0_1_2_3
      (broadcastInDim S1x1x1x256 ![3] bcast_S256_S1x1x1x256_3 bc))

/-- The container sequence: per column the 32 embedded scalars then the column's stop-token row, flattened. -/
def baySeqOf (bay : (⟨S64x1x64x32, .f32⟩ : BufTy).Contents (Elt F)) (Wc bc : (⟨S256, .f32⟩ : BufTy).Contents (Elt F)) (colTok : (⟨S64x256, .f32⟩ : BufTy).Contents (Elt F)) :
    (⟨S64x2112x256, .f32⟩ : BufTy).Contents (Elt F) :=
  shapeCast S64x2112x256
    (concatenate S64x64x33x256 2
      [⟨S64x64x32x256, bayEmb bay Wc bc⟩,
       ⟨S64x64x1x256, broadcastInDim S64x64x1x256 ![0, 1, 2, 3] bcast_S1x64x1x256_S64x64x1x256_0_1_2_3
          (broadcastInDim S1x64x1x256 ![1, 3] bcast_S64x256_S1x64x1x256_1_3 colTok)⟩]
      concatenates_S64x64x32x256_S64x64x1x256_S64x64x33x256_d2)
    shapeCasts_S64x64x33x256_S64x2112x256

/-- T[b,0,l] · Wt[d] + bt[d]. -/
def tEmb (T : (⟨S64x1x2016, .f32⟩ : BufTy).Contents (Elt F)) (Wt bt : (⟨S256, .f32⟩ : BufTy).Contents (Elt F)) : (⟨S64x2016x256, .f32⟩ : BufTy).Contents (Elt F) :=
  addf
    (mulf
      (broadcastInDim S64x2016x256 ![0, 1, 2] bcast_S64x2016x1_S64x2016x256_0_1_2
        (broadcastInDim S64x2016x1 ![0, 1] bcast_S64x2016_S64x2016x1_0_1
          (shapeCast S64x2016 T shapeCasts_S64x1x2016_S64x2016)))
      (broadcastInDim S64x2016x256 ![0, 1, 2] bcast_S1x1x256_S64x2016x256_0_1_2
        (broadcastInDim S1x1x256 ![2] bcast_S256_S1x1x256_2 Wt)))
    (broadcastInDim S64x2016x256 ![0, 1, 2] bcast_S1x1x256_S64x2016x256_0_1_2
      (broadcastInDim S1x1x256 ![2] bcast_S256_S1x1x256_2 bt))

/-- The T sequence: the token row where the flag is set, elsewhere the embedded scalar at the position's data index. -/
def tSeqOf (T : (⟨S64x1x2016, .f32⟩ : BufTy).Contents (Elt F)) (Wt bt : (⟨S256, .f32⟩ : BufTy).Contents (Elt F)) (tokSeq : (⟨S2079x256, .f32⟩ : BufTy).Contents (Elt F))
    (tokc : IVec S2079 1) (dcol : IVec S2079x1 32) : (⟨S64x2079x256, .f32⟩ : BufTy).Contents (Elt F) :=
  select
    (broadcastInDim S64x2079x256 ![1, 2] bcast_S2079x1_S64x2079x256_1_2
      (broadcastInDim S2079x1 ![0] bcast_S2079_S2079x1_0 tokc))
    (broadcastInDim S64x2079x256 ![0, 1, 2] bcast_S1x2079x256_S64x2079x256_0_1_2
      (broadcastInDim S1x2079x256 ![1, 2] bcast_S2079x256_S1x2079x256_1_2 tokSeq))
    (Host.gather gather_S64x2016x256_S2079x1_S64x2079x256_02_1_n_n_1_1_641256 (tEmb T Wt bt) dcol)

/-- The output over the four table-derived arrays: the container sequence then the T sequence. -/
def refOutOf (bay : (⟨S64x1x64x32, .f32⟩ : BufTy).Contents (Elt F)) (T : (⟨S64x1x2016, .f32⟩ : BufTy).Contents (Elt F)) (Wc bc Wt bt : (⟨S256, .f32⟩ : BufTy).Contents (Elt F))
    (colTok : (⟨S64x256, .f32⟩ : BufTy).Contents (Elt F)) (tokSeq : (⟨S2079x256, .f32⟩ : BufTy).Contents (Elt F)) (tokc : IVec S2079 1) (dcol : IVec S2079x1 32) :
    (⟨S64x4191x256, .f32⟩ : BufTy).Contents (Elt F) :=
  concatenate S64x4191x256 1
    [⟨S64x2112x256, baySeqOf bay Wc bc colTok⟩, ⟨S64x2079x256, tSeqOf T Wt bt tokSeq tokc dcol⟩]
    concatenates_S64x2112x256_S64x2079x256_S64x4191x256_d1

/-- The reference's output as a function of its seven arguments. -/
def refOut (bay : (⟨S64x1x64x32, .f32⟩ : BufTy).Contents (Elt F)) (T : (⟨S64x1x2016, .f32⟩ : BufTy).Contents (Elt F)) (Wc bc Wt bt : (⟨S256, .f32⟩ : BufTy).Contents (Elt F))
    (tok : (⟨S4x256, .f32⟩ : BufTy).Contents (Elt F)) : (⟨S64x4191x256, .f32⟩ : BufTy).Contents (Elt F) :=
  refOutOf bay T Wc bc Wt bt (colTokR tok) (tokSeqR tok) tokcR dcolR

end Cert.ReferenceIdeal.RefRun

end
-- ==== Proof.Bridge.lean ====
/-
  The table-derived arrays of the two programs are the same arrays.

  Each program builds, from its static tables, the column stop-token rows (a gather of the token table at the 64 column
  ids), the T sequence's token rows (a gather at the 2079 token ids), the token flags and the column of data indices
  (a negative index wrapped by the axis length). The two programs apply the same operations, and their tables are the
  same tables, so the four arrays agree; what the tables hold is never used.
-/
import proofs.«180589_j5643587026959_2_alg».proof.Proof.Tables
import proofs.«180589_j5643587026959_2_alg».proof.Proof.KerDefs
import proofs.«180589_j5643587026959_2_alg».proof.Proof.RefStages

noncomputable section

namespace Cert.Bridge

open Idealize.ShloMosaic Cert.KernelIdeal.KerHost Cert.ReferenceIdeal.RefRun

/-- The column stop-token rows. -/
theorem colTok_eq (tok : FVec Ideal Cert.KernelIdeal.S4x256 .f32) : colTokK tok = colTokR (F := Ideal) tok := by
  unfold colTokK colIdxK colTokR wrap64
  rw [Cert.Tables.lit0_eq]
  all_goals rfl

/-- The T sequence's token rows. -/
theorem tokSeq_eq (tok : FVec Ideal Cert.KernelIdeal.S4x256 .f32) : tokSeqK tok = tokSeqR (F := Ideal) tok := by
  unfold tokSeqK tokIdxK tokSeqR wrap2079
  rw [Cert.Tables.lit1_eq]
  all_goals rfl

/-- The token flags. -/
theorem tokc_eq : tokcK = tokcR := by
  unfold tokcK tokcR
  rw [Cert.Tables.lit2_eq]
  all_goals rfl

/-- The column of data indices. -/
theorem dcol_eq : dcolK = dcolR := by
  unfold dcolK dcolR wrap2079
  rw [Cert.Tables.lit3_eq]
  all_goals rfl

end Cert.Bridge

end
-- ==== Proof.KerBlocks.lean ====
/-
  The kernel's output array as one function of the three arrays its windows stage.

  The call runs over 64 grid points, one per batch row b. At point b the body loads the block b of the scalar table
  src3 : [64, 4191, 1] and the whole weight and row tables Wrow, tbl : [4191, 256] (their windows do not move), and stores
  the block b of the output, whose element (0, p, d) is src3[b, p, 0] · Wrow[p, d] + tbl[p, d]. The 64 output blocks tile
  the output array, so after the run the array holds, at every index (b, p, d), that expression of the three arrays as
  the call found them.
-/
import proofs.«180589_j5643587026959_2_alg».proof.Proof.Gen.KernelIdeal.Value

noncomputable section

namespace Cert.KernelIdeal.KerBlocks

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem zero3 : (![0, 0, 0] : Fin 3 → Nat) = fun _ => 0 := funext fun a => by fin_cases a <;> rfl
theorem zero2 : (![0, 0] : Fin 2 → Nat) = fun _ => 0 := funext fun a => by fin_cases a <;> rfl

/-- Where output index (b, p, d) reads the scalar table: (b, p, 0). -/
abbrev srcIx (i : S64x4191x256.Idx) : S64x4191x1.Idx := fun a => match a with
  | ⟨0, _⟩ => ⟨(i 0).val, (i 0).isLt⟩ | ⟨1, _⟩ => ⟨(i 1).val, (i 1).isLt⟩ | ⟨2, _⟩ => ⟨0, Nat.one_pos⟩

/-- Where output index (b, p, d) reads the weight and row tables: (p, d). -/
abbrev rowIx (i : S64x4191x256.Idx) : S4191x256.Idx := fun a => match a with
  | ⟨0, _⟩ => ⟨(i 1).val, (i 1).isLt⟩ | ⟨1, _⟩ => ⟨(i 2).val, (i 2).isLt⟩

/-- The output array as a function of the three staged arrays: scalar · weight + row, index by index. -/
abbrev outOf (a0 : S64x4191x1.Idx → Elt F .f32) (a1 a2 : S4191x256.Idx → Elt F .f32) : S64x4191x256.Idx → Elt F .f32 :=
  fun i => FloatOps.addf (FloatOps.mulf (a0 (srcIx i)) (a1 (rowIx i))) (a2 (rowIx i))

/-- The printed index maps over the 64 grid points: the scalar table's block moves with the output's along the batch
    axis, and no other block index moves. -/
theorem index_facts : ∀ t : Fin cfg0.N, win0_0.index t (0 : Fin 3) = win0_3.index t (0 : Fin 3)
    ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 3) = 0 ∧ win0_3.index t (2 : Fin 3) = 0 ∧ win0_3.index t (0 : Fin 3) ≤ 63 :=
  (by decide +kernel : ∀ t : Fin grid0.N, _)

/-- Every batch row is some point's output block. -/
theorem index_onto : ∀ q0 : Fin 64, ∃ t : Fin cfg0.N, win0_3.index t = ![q0.val, 0, 0] :=
  (by decide +kernel : ∀ q0 : Fin 64, ∃ t : Fin grid0.N, win0_3.index t = ![q0.val, 0, 0])

/-- The three staged arrays as the call finds them (core c's buffers when the call is entered). -/
abbrev srcArr (c : Dev nD) : S64x4191x1.Idx → Elt F .f32 := V m c (Pipeline.arrRef spec0 0)
abbrev wrowArr (c : Dev nD) : S4191x256.Idx → Elt F .f32 := V m c (Pipeline.arrRef spec0 1)
abbrev tblArr (c : Dev nD) : S4191x256.Idx → Elt F .f32 := V m c (Pipeline.arrRef spec0 2)

/-- The body's result at block index j, over the input blocks of ANY three arrays at point t, is outOf of those arrays
    at the array index under j: each input block's element sits in its array where the output block's element sits in
    the output, the batch coordinate shared with the scalar table and dropped for the two resident tables. -/
theorem block_read (A0 : S64x4191x1.Idx → Elt F .f32) (A1 A2 : S4191x256.Idx → Elt F .f32) (t : Fin cfg0.N) (j : S1x4191x256.Idx) :
    Cert.KernelIdeal.Value.E3 (((cfg0.win 0).blk t).view.read (Elt F) A0) (((cfg0.win 1).blk t).view.read (Elt F) A1)
        (((cfg0.win 2).blk t).view.read (Elt F) A2) j
      = outOf A0 A1 A2 (((cfg0.win 3).blk t).view.emb j) := by
  obtain ⟨e0, e1, e2, e3, e4, e5, e6, e7, e8, e9⟩ := index_facts t
  show FloatOps.addf (FloatOps.mulf (A0 (((cfg0.win 0).blk t).view.emb (Cert.KernelIdeal.Value.ix3_0 j))) (A1 (((cfg0.win 1).blk t).view.emb (Cert.KernelIdeal.Value.ix3_1 j)))) (A2 (((cfg0.win 2).blk t).view.emb (Cert.KernelIdeal.Value.ix3_2 j)))
    = FloatOps.addf (FloatOps.mulf (A0 (srcIx (((cfg0.win 3).blk t).view.emb j))) (A1 (rowIx (((cfg0.win 3).blk t).view.emb j)))) (A2 (rowIx (((cfg0.win 3).blk t).view.emb j)))
  have hj0 : (j 0).val < 1 := (j 0).isLt
  have hj1 : (j 1).val < 4191 := (j 1).isLt
  have hj2 : (j 2).val < 256 := (j 2).isLt
  have h0 : ((cfg0.win 0).blk t).view.emb (Cert.KernelIdeal.Value.ix3_0 j) = srcIx (((cfg0.win 3).blk t).view.emb j) := by
    funext a; apply Fin.ext
    match a with
    | ⟨0, _⟩ => show win0_0.index t (0 : Fin 3) * 1 + 1 * 0 = win0_3.index t (0 : Fin 3) * 1 + 1 * (j 0).val; omega
    | ⟨1, _⟩ => show win0_0.index t (1 : Fin 3) * 4191 + 1 * (j 1).val = win0_3.index t (1 : Fin 3) * 4191 + 1 * (j 1).val; omega
    | ⟨2, _⟩ => show win0_0.index t (2 : Fin 3) * 1 + 1 * 0 = 0; omega
  have h1 : ((cfg0.win 1).blk t).view.emb (Cert.KernelIdeal.Value.ix3_1 j) = rowIx (((cfg0.win 3).blk t).view.emb j) := by
    funext a; apply Fin.ext
    match a with
    | ⟨0, _⟩ => show win0_1.index t (0 : Fin 2) * 4191 + 1 * (j 1).val = win0_3.index t (1 : Fin 3) * 4191 + 1 * (j 1).val; omega
    | ⟨1, _⟩ => show win0_1.index t (1 : Fin 2) * 256 + 1 * (j 2).val = win0_3.index t (2 : Fin 3) * 256 + 1 * (j 2).val; omega
  have h2 : ((cfg0.win 2).blk t).view.emb (Cert.KernelIdeal.Value.ix3_2 j) = rowIx (((cfg0.win 3).blk t).view.emb j) := by
    funext a; apply Fin.ext
    match a with
    | ⟨0, _⟩ => show win0_2.index t (0 : Fin 2) * 4191 + 1 * (j 1).val = win0_3.index t (1 : Fin 3) * 4191 + 1 * (j 1).val; omega
    | ⟨1, _⟩ => show win0_2.index t (1 : Fin 2) * 256 + 1 * (j 2).val = win0_3.index t (2 : Fin 3) * 256 + 1 * (j 2).val; omega
  rw [h0, h1, h2]

/-- What point t writes back is block t of outOf of the three arrays as the call finds them. -/
theorem flushed_eq (c : Dev nD) (t : Fin cfg0.N) :
    (dats m 0 c).flushed 3 t = ((cfg0.win 3).blk t).view.read (Elt F) (outOf (srcArr m c) (wrowArr m c) (tblArr m c)) := by
  rw [Cert.KernelIdeal.Value.flushed3]
  unfold out0_3
  simp only [View.ld_unit_zero (S := S1x4191x1) zero3, View.ld_unit_zero (S := S4191x256) zero2]
  unfold iblk
  funext j
  refine (Cert.KernelIdeal.Value.canon3_eq _ _ _ j).trans ?_
  exact block_read _ _ _ t j

/-- An index of the output array is in point t's block iff each coordinate is in the block's range on its axis. -/
theorem mem_block (t : Fin cfg0.N) (i : S64x4191x256.Idx) :
    i ∈ ((cfg0.win 3).blk t).view.set ↔ ∀ a : Fin 3, win0_3.index t a * S1x4191x256.size a ≤ (i a).val ∧ (i a).val < win0_3.index t a * S1x4191x256.size a + S1x4191x256.size a := by
  show i ∈ ((View.whole main_v46).slice (win0_3.rect t)).set ↔ _
  rw [View.set_slice_whole, Rect.mem_set_unit]
  exact Iff.rfl

/-- The 64 output blocks cover the output array: index (b, p, d) is in the block of the point that writes batch row b. -/
theorem covered (i : S64x4191x256.Idx) :
    ∃ t : Fin cfg0.N, (cfg0.win 3).flush t = true ∧ i ∈ ((cfg0.win 3).blk t).view.set := by
  have hi0 : (i 0).val < 64 := (i 0).isLt
  have hi1 : (i 1).val < 4191 := (i 1).isLt
  have hi2 : (i 2).val < 256 := (i 2).isLt
  obtain ⟨t, ht⟩ := index_onto ⟨(i 0).val, hi0⟩
  have q0 : win0_3.index t (0 : Fin 3) = (i 0).val := congrFun ht 0
  have q1 : win0_3.index t (1 : Fin 3) = 0 := congrFun ht 1
  have q2 : win0_3.index t (2 : Fin 3) = 0 := congrFun ht 2
  refine ⟨t, flush0_3 t, ?_⟩
  rw [mem_block]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 4191 ≤ (i 1).val ∧ (i 1).val < win0_3.index t (1 : Fin 3) * 4191 + 4191; omega
  | ⟨2, _⟩ => show win0_3.index t (2 : Fin 3) * 256 ≤ (i 2).val ∧ (i 2).val < win0_3.index t (2 : Fin 3) * 256 + 256; omega

/-- The output array after the run. -/
theorem final (c : Dev nD) :
    (dats m 0 c).arrAt 3 cfg0.N = outOf (srcArr m c) (wrowArr m c) (tblArr m c) :=
  (dats m 0 c).arrAt_eq_of_cover 3 (outOf (srcArr m c) (wrowArr m c) (tblArr m c))
    (fun t _ => flushed_eq m c t) covered

/-- The kernel program's run: every weakly fair execution terminates with the output array at outOf of the three staged
    arrays and the argument arrays as launched. -/
theorem run : θ_run defs (onTc (τ := τ) (main (F := F))) ⟨m, fun _ => 0, ρ⟩ fun r => ∀ c : Dev nD,
      r.2.mem ((c : Thread nD τ).loc main_v46) = outOf (srcArr m c) (wrowArr m c) (tblArr m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Cert.KernelIdeal.Value.run_blocks m ρ)

end Cert.KernelIdeal.KerBlocks

end
-- ==== Proof.KerHost.lean ====
/-
  What the kernel call's three input arrays hold when the call is entered: the host prefix of the program run from
  the launch memory leaves in them exactly the three tables of KerDefs, as functions of the argument arrays.
  Each equation is the fold of the host operations read at one buffer, over an arbitrary starting valuation:
  every operation's result buffer is told apart from the buffer read by computation, and the layout operations,
  the gathers and the static tables are never opened.
-/
import proofs.«180589_j5643587026959_2_alg».proof.Proof.Gen.KernelIdeal.Frame
import proofs.«180589_j5643587026959_2_alg».proof.Proof.KerDefs
import Idealize.ShloMosaic.Lib.StableHlo.Run

noncomputable section

namespace Cert.KernelIdeal.KerHost

open Cert.KernelIdeal Cert.KernelIdeal.Facts₀ Idealize.ShloMosaic Idealize.ShloMosaic.TcCoe Idealize.ShloMosaic.StableHlo Idealize.SL.Sem

/-- The host operations before the kernel call, in order. -/
abbrev hostOps : List (HloOp τ sig (Elt Ideal)) :=
  List.flatten [Gen.hostOps0, Gen.hostOps0_1, Gen.hostOps0_2, Gen.hostOps0_3, Gen.hostOps0_4]

attribute [local irreducible] Host.gather concatenate broadcastInDim shapeCast Idealize.ShloMosaic.select Idealize.ShloMosaic.cmpi Idealize.ShloMosaic.addi constant constantI in
set_option maxRecDepth 8192 in
set_option maxHeartbeats 1000000 in
theorem after_v30 (V : Valuation τ sig (Elt Ideal)) :
    (after hostOps V (Proc.devRef .tc main_v30) : FVec Ideal S4191x256 .f32)
      = wrowK (V (Proc.devRef .tc main_arg2)) (V (Proc.devRef .tc main_arg4)) := by
  simp only [hostOps, Gen.hostOps0, Gen.hostOps0_1, Gen.hostOps0_2, Gen.hostOps0_3, Gen.hostOps0_4, List.flatten_cons, List.flatten_nil,
    List.append_nil, List.cons_append, List.nil_append, after_cons, after_nil]
  rfl

attribute [local irreducible] Host.gather concatenate broadcastInDim shapeCast Idealize.ShloMosaic.select Idealize.ShloMosaic.cmpi Idealize.ShloMosaic.addi constant constantI in
set_option maxRecDepth 8192 in
set_option maxHeartbeats 1000000 in
theorem after_v45 (V : Valuation τ sig (Elt Ideal)) :
    (after hostOps V (Proc.devRef .tc main_v45) : FVec Ideal S64x4191x1 .f32)
      = src3K (V (Proc.devRef .tc main_arg0)) (V (Proc.devRef .tc main_arg1)) := by
  simp only [hostOps, Gen.hostOps0, Gen.hostOps0_1, Gen.hostOps0_2, Gen.hostOps0_3, Gen.hostOps0_4, List.flatten_cons, List.flatten_nil,
    List.append_nil, List.cons_append, List.nil_append, after_cons, after_nil]
  rfl

attribute [local irreducible] Host.gather concatenate broadcastInDim shapeCast Idealize.ShloMosaic.select Idealize.ShloMosaic.cmpi Idealize.ShloMosaic.addi constant constantI in
set_option maxRecDepth 8192 in
set_option maxHeartbeats 1000000 in
theorem after_v25 (V : Valuation τ sig (Elt Ideal)) :
    (after hostOps V (Proc.devRef .tc main_v25) : FVec Ideal S4191x256 .f32)
      = tblK (V (Proc.devRef .tc main_arg3)) (V (Proc.devRef .tc main_arg5)) (V (Proc.devRef .tc main_arg6)) := by
  simp only [hostOps, Gen.hostOps0, Gen.hostOps0_1, Gen.hostOps0_2, Gen.hostOps0_3, Gen.hostOps0_4, List.flatten_cons, List.flatten_nil,
    List.append_nil, List.cons_append, List.nil_append, after_cons, after_nil]
  rfl

variable (m : (ℓ : Loc nD τ sig) → Buf (Elt Ideal) ℓ)

/-- The kernel call's first input array is the per-(b, p) scalar table of the two data arguments. -/
theorem V45_eq (c : Dev nD) :
    (Gen.V m c main_v45 : FVec Ideal S64x4191x1 .f32)
      = src3K (m ((c : Thread nD τ).loc main_arg0)) (m ((c : Thread nD τ).loc main_arg1)) := by
  dsimp only [Gen.V]
  exact after_v45 (fun b => m (c, b))

/-- The kernel call's second input array is the weight rows of the two weight arguments. -/
theorem V30_eq (c : Dev nD) :
    (Gen.V m c main_v30 : FVec Ideal S4191x256 .f32)
      = wrowK (m ((c : Thread nD τ).loc main_arg2)) (m ((c : Thread nD τ).loc main_arg4)) := by
  dsimp only [Gen.V]
  exact after_v30 (fun b => m (c, b))

/-- The kernel call's third input array is the additive rows of the two bias arguments and the token table. -/
theorem V25_eq (c : Dev nD) :
    (Gen.V m c main_v25 : FVec Ideal S4191x256 .f32)
      = tblK (m ((c : Thread nD τ).loc main_arg3)) (m ((c : Thread nD τ).loc main_arg5)) (m ((c : Thread nD τ).loc main_arg6)) := by
  dsimp only [Gen.V]
  exact after_v25 (fun b => m (c, b))

end Cert.KernelIdeal.KerHost

end
-- ==== Proof.KerRead.lean ====
/-
  The three tables of the kernel's host prefix read at an index (b, p, d) of literal-size coordinates.
  A position p < 2112 of the container sequence is (column p / 33, slot p % 33); the reshapes keep row-major position,
  so a flattened position reads its (column, slot) element; the concatenations pick the data or bias for a slot below 32
  and the stop-token entry at slot 32; a position p ≥ 2112 reads T-sequence position p − 2112, where the flag selects
  between the token entry and the data entry. The token rows, the flags and the data-index column stay variables.
-/
import proofs.«180589_j5643587026959_2_alg».proof.Proof.KerDefs
import proofs.«180589_j5643587026959_2_alg».proof.Proof.Spec
import Idealize.ShloMosaic.Lib.Pipeline.Value
import Idealize.ShloMosaic.Lib.ValueIdx

noncomputable section

namespace Cert.KernelIdeal.KerHost

open Cert.KernelIdeal Cert.KernelIdeal.Facts₀ Idealize.ShloMosaic Idealize.ShloMosaic.ValueIdx

/-! ## Rows of a length-256 vector -/

/-- A length-256 vector as a 1 × 256 row, read at (0, d). -/
theorem row1_apply (w : FVec Ideal S256 .f32) (d : Fin 256) :
    broadcastInDim S1x256 ![1] bcast_S256_S1x256_1 w (ix2 (0 : Fin 1) d) = w (ix1 d) :=
  broadcastInDim_apply _ _ w (ix2 (0 : Fin 1) d) (ix1 d) (fun a => by match a with | ⟨0, _⟩ => rfl)

theorem rows2112K_apply (w : FVec Ideal S256 .f32) (r : Fin 2112) (d : Fin 256) : rows2112K w (ix2 r d) = w (ix1 d) := by
  unfold rows2112K
  refine (broadcastInDim_apply _ _ _ (ix2 r d) (ix2 (0 : Fin 1) d) (fun a => by match a with | ⟨0, _⟩ => rfl | ⟨1, _⟩ => rfl)).trans ?_
  exact row1_apply w d

theorem rows2079K_apply (w : FVec Ideal S256 .f32) (r : Fin 2079) (d : Fin 256) : rows2079K w (ix2 r d) = w (ix1 d) := by
  unfold rows2079K
  refine (broadcastInDim_apply _ _ _ (ix2 r d) (ix2 (0 : Fin 1) d) (fun a => by match a with | ⟨0, _⟩ => rfl | ⟨1, _⟩ => rfl)).trans ?_
  exact row1_apply w d

/-! ## A 4191-row table cut at row 2112 -/

/-- A concatenation of 2112 and 2079 rows read at a row below 2112. -/
theorem cat0_left (x₁ : FVec Ideal S2112x256 .f32) (x₂ : FVec Ideal S2079x256 .f32) (p : Fin 4191) (d : Fin 256) (h : p.val < 2112) :
    concatenate S4191x256 0 [⟨S2112x256, x₁⟩, ⟨S2079x256, x₂⟩] concatenates_S2112x256_S2079x256_S4191x256_d0 (ix2 p d)
      = x₁ (ix2 (⟨p.val, h⟩ : Fin 2112) d) :=
  concatenate_pair_apply_left 0 x₁ x₂ _ (ix2 p d) rfl (ix2 (⟨p.val, h⟩ : Fin 2112) d)
    (fun b => by match b with | ⟨0, _⟩ => rfl | ⟨1, _⟩ => rfl)

/-- A concatenation of 2112 and 2079 rows read at a row from 2112 on. -/
theorem cat0_right (x₁ : FVec Ideal S2112x256 .f32) (x₂ : FVec Ideal S2079x256 .f32) (p : Fin 4191) (d : Fin 256) (h : ¬ p.val < 2112) :
    concatenate S4191x256 0 [⟨S2112x256, x₁⟩, ⟨S2079x256, x₂⟩] concatenates_S2112x256_S2079x256_S4191x256_d0 (ix2 p d)
      = x₂ (ix2 (Cert.Spec.tPos p h) d) :=
  concatenate_pair_apply_right 0 x₁ x₂ _ (ix2 p d) rfl rfl (ix2 (Cert.Spec.tPos p h) d)
    (fun b hb => by match b with | ⟨0, _⟩ => exact absurd rfl hb | ⟨1, _⟩ => rfl)
    (by show p.val - 2112 + 2112 = p.val; omega)

/-! ## The weight rows -/

theorem wrowK_apply (Wc Wt : FVec Ideal S256 .f32) (p : Fin 4191) (d : Fin 256) :
    wrowK Wc Wt (ix2 p d) = Cert.Spec.wrowAt Wc Wt p d := by
  unfold wrowK Cert.Spec.wrowAt
  by_cases h : p.val < 2112
  · rw [if_pos h, cat0_left _ _ p d h, rows2112K_apply]
  · rw [if_neg h, cat0_right _ _ p d h, rows2079K_apply]

/-! ## The additive rows -/

/-- The container rows at a flattened position whose slot is below 32: the bias. -/
theorem contRowsK_apply_lt (bc : FVec Ideal S256 .f32) (colTok : FVec Ideal S64x256 .f32) (p : Fin 2112) (d : Fin 256)
    (hr : p.val % 33 < 32) : contRowsK bc colTok (ix2 p d) = bc (ix1 d) := by
  unfold contRowsK
  refine (shapeCast_apply _ _ (ix2 p d) (ix3 (⟨p.val / 33, by omega⟩ : Fin 64) (⟨p.val % 33, by omega⟩ : Fin 33) d) ?_).trans ?_
  · rw [Shape.rowMajor_val_three, Shape.rowMajor_val_two]
    show (p.val / 33 * 33 + p.val % 33) * 256 + d.val = p.val * 256 + d.val
    omega
  refine (concatenate_pair_apply_left (t := S64x33x256) (s₁ := S64x32x256) (s₂ := S64x1x256) 1 _ _ _
    (ix3 (⟨p.val / 33, by omega⟩ : Fin 64) (⟨p.val % 33, by omega⟩ : Fin 33) d) rfl
    (ix3 (⟨p.val / 33, by omega⟩ : Fin 64) (⟨p.val % 33, hr⟩ : Fin 32) d)
    (fun b => by match b with | ⟨0, _⟩ => rfl | ⟨1, _⟩ => rfl | ⟨2, _⟩ => rfl)).trans ?_
  refine (broadcastInDim_apply _ _ _ _ (ix2 (0 : Fin 1) d) (fun a => by match a with | ⟨0, _⟩ => rfl | ⟨1, _⟩ => rfl)).trans ?_
  exact row1_apply bc d

/-- The container rows at a flattened position whose slot is 32: the column's stop-token row. -/
theorem contRowsK_apply_ge (bc : FVec Ideal S256 .f32) (colTok : FVec Ideal S64x256 .f32) (p : Fin 2112) (d : Fin 256)
    (hr : ¬ p.val % 33 < 32) : contRowsK bc colTok (ix2 p d) = colTok (ix2 (⟨p.val / 33, by omega⟩ : Fin 64) d) := by
  unfold contRowsK
  refine (shapeCast_apply _ _ (ix2 p d) (ix3 (⟨p.val / 33, by omega⟩ : Fin 64) (⟨p.val % 33, by omega⟩ : Fin 33) d) ?_).trans ?_
  · rw [Shape.rowMajor_val_three, Shape.rowMajor_val_two]
    show (p.val / 33 * 33 + p.val % 33) * 256 + d.val = p.val * 256 + d.val
    omega
  refine (concatenate_pair_apply_right (t := S64x33x256) (s₁ := S64x32x256) (s₂ := S64x1x256) 1 _ _ _
    (ix3 (⟨p.val / 33, by omega⟩ : Fin 64) (⟨p.val % 33, by omega⟩ : Fin 33) d) rfl rfl
    (ix3 (⟨p.val / 33, by omega⟩ : Fin 64) (0 : Fin 1) d)
    (fun b hb => by match b with | ⟨0, _⟩ => rfl | ⟨1, _⟩ => exact absurd rfl hb | ⟨2, _⟩ => rfl)
    (by show 0 + 32 = p.val % 33; omega)).trans ?_
  exact broadcastInDim_apply _ _ colTok _ (ix2 (⟨p.val / 33, by omega⟩ : Fin 64) d)
    (fun a => by match a with | ⟨0, _⟩ => rfl | ⟨1, _⟩ => rfl)

/-- The flags as a column then as a 2079 × 256 mask, read at (q, d). -/
theorem flagRows_apply (tokc : IVec S2079 1) (q : Fin 2079) (d : Fin 256) :
    broadcastInDim S2079x256 ![0, 1] bcast_S2079x1_S2079x256_0_1 (broadcastInDim S2079x1 ![0] bcast_S2079_S2079x1_0 tokc) (ix2 q d)
      = tokc (ix1 q) := by
  refine (broadcastInDim_apply _ _ _ (ix2 q d) (ix2 q (0 : Fin 1)) (fun a => by match a with | ⟨0, _⟩ => rfl | ⟨1, _⟩ => rfl)).trans ?_
  exact broadcastInDim_apply _ _ tokc _ (ix1 q) (fun a => by match a with | ⟨0, _⟩ => rfl)

/-- The T-sequence rows at (q, d): the token row where the flag is set, the bias elsewhere. -/
theorem tRowsK_apply (bt : FVec Ideal S256 .f32) (tokSeq : FVec Ideal S2079x256 .f32) (tokc : IVec S2079 1) (q : Fin 2079) (d : Fin 256) :
    tRowsK bt tokSeq tokc (ix2 q d) = Scalar.select (tokc (ix1 q)) (tokSeq (ix2 q d)) (bt (ix1 d)) := by
  unfold tRowsK
  rw [select_apply, flagRows_apply, rows2079K_apply]

theorem tblOf_apply (bc bt : FVec Ideal S256 .f32) (colTok : FVec Ideal S64x256 .f32) (tokSeq : FVec Ideal S2079x256 .f32)
    (tokc : IVec S2079 1) (p : Fin 4191) (d : Fin 256) :
    tblOf bc bt colTok tokSeq tokc (ix2 p d) = Cert.Spec.tblAt bc bt colTok tokSeq tokc p d := by
  unfold tblOf Cert.Spec.tblAt
  by_cases h : p.val < 2112
  · rw [dif_pos h, cat0_left _ _ p d h]
    by_cases hr : p.val % 33 < 32
    · rw [if_pos hr]; exact contRowsK_apply_lt bc colTok ⟨p.val, h⟩ d hr
    · rw [if_neg hr]; exact contRowsK_apply_ge bc colTok ⟨p.val, h⟩ d hr
  · rw [dif_neg h, cat0_right _ _ p d h, tRowsK_apply]

theorem tblK_apply (bc bt : FVec Ideal S256 .f32) (tok : FVec Ideal S4x256 .f32) (p : Fin 4191) (d : Fin 256) :
    tblK bc bt tok (ix2 p d) = Cert.Spec.tblAt bc bt (colTokK tok) (tokSeqK tok) tokcK p d :=
  tblOf_apply bc bt (colTokK tok) (tokSeqK tok) tokcK p d

end Cert.KernelIdeal.KerHost

end
-- ==== Proof.LibGatherMid.lean ====
/-
  A StableHLO gather that picks, along ONE axis of the operand, the position named by a column of start indices,
  read at an index.

  With an operand x : [B, L] (or [B, L, D]), start indices idx : [K, 1] and the dimension numbers that jnp's
  x[:, idx] lowers to — the gathered axis 1 collapsed and named by the start index map, every other axis an offset
  axis taken whole —, result element (b, q) (or (b, q, d)) is x at (b, l) (or (b, l, d)), where l is the start index
  idx[q, 0] read as a signed integer and clamped into 0 … L − 1, as the gather clamps every start index.
-/
import Idealize.ShloMosaic.PureOps
import Idealize.ShloMosaic.Lib.ValueIdx

noncomputable section

namespace Cert.LibGatherMid

open Idealize.ShloMosaic Idealize.ShloMosaic.ValueIdx

variable {α : Type}

/-- The axes of a rank-2 operand other than axis 1. -/
theorem kept_rank2 : (List.finRange 2).filter (· ∉ ([1] ++ [] : List (Fin 2))) = [0] := by decide

/-- The axes of a rank-3 operand other than axis 1. -/
theorem kept_rank3 : (List.finRange 3).filter (· ∉ ([1] ++ [] : List (Fin 3))) = [0, 2] := by decide

/-- The dimension numbers of x[:, idx] for x : [B, L], idx : [K, 1], result [B, K]. -/
abbrev dims2 (B L K : Nat) (wf : GatherDims.WF ⟨2, ![B, L]⟩ ⟨2, ![K, 1]⟩ ⟨2, ![B, K]⟩ [0] [1] [] [1] [] 1 ![B, 1]) :
    GatherDims ⟨2, ![B, L]⟩ ⟨2, ![K, 1]⟩ ⟨2, ![B, K]⟩ where
  offsetDims := [0]
  collapsedSliceDims := [1]
  operandBatchingDims := []
  startIndicesBatchingDims := []
  startIndexMap := [1]
  indexVectorDim := 1
  sliceSizes := ![B, 1]
  wf := wf

/-- The dimension numbers of x[:, idx, :] for x : [B, L, D], idx : [K, 1], result [B, K, D]. -/
abbrev dims3 (B L D K : Nat) (wf : GatherDims.WF ⟨3, ![B, L, D]⟩ ⟨2, ![K, 1]⟩ ⟨3, ![B, K, D]⟩ [0, 2] [1] [] [1] [] 1 ![B, 1, D]) :
    GatherDims ⟨3, ![B, L, D]⟩ ⟨2, ![K, 1]⟩ ⟨3, ![B, K, D]⟩ where
  offsetDims := [0, 2]
  collapsedSliceDims := [1]
  operandBatchingDims := []
  startIndicesBatchingDims := []
  startIndexMap := [1]
  indexVectorDim := 1
  sliceSizes := ![B, 1, D]
  wf := wf

/-- x[:, idx] at (b, q) is x at (b, idx[q, 0] read signed and clamped into 0 … L − 1). -/
theorem gather2_apply {B L K w : Nat} (hL : 0 < L)
    (wf : GatherDims.WF ⟨2, ![B, L]⟩ ⟨2, ![K, 1]⟩ ⟨2, ![B, K]⟩ [0] [1] [] [1] [] 1 ![B, 1])
    (x : (⟨2, ![B, L]⟩ : Shape).Idx → α) (idx : IVec ⟨2, ![K, 1]⟩ w) (b : Fin B) (q : Fin K) :
    Host.gather (dims2 B L K wf) x idx (ix2 b q)
      = x (ix2 b ⟨min (idx (ix2 q 0)).toInt.toNat (L - 1), by omega⟩) := by
  unfold Host.gather
  congr 1
  funext a
  refine Fin.ext ?_
  match a with
  | ⟨0, _⟩ =>
    show (dims2 B L K wf).start (ix2 b q) idx 0 + (dims2 B L K wf).batchCoord (ix2 b q) 0 + (dims2 B L K wf).offCoord (ix2 b q) 0 = b.val
    rw [GatherDims.batchCoord_eq_zero _ _ _ List.not_mem_nil]
    unfold GatherDims.start
    rw [dif_neg (show (0 : Fin 2) ∉ ([1] : List (Fin 2)) by decide)]
    unfold GatherDims.offCoord
    rw [dif_pos ((GatherDims.mem_sKept _ _).2 ⟨show (0 : Fin 2) ∉ ([1] : List (Fin 2)) by decide, List.not_mem_nil⟩)]
    have hk : (dims2 B L K wf).sKept = [0] := kept_rank2
    simp only [hk, List.idxOf_cons_self, Nat.zero_add]
    rfl
  | ⟨1, _⟩ =>
    show (dims2 B L K wf).start (ix2 b q) idx 1 + (dims2 B L K wf).batchCoord (ix2 b q) 1 + (dims2 B L K wf).offCoord (ix2 b q) 1 = min (idx (ix2 q 0)).toInt.toNat (L - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (dims2 B L K wf).startIndexMap from List.mem_singleton.mpr rfl)]
    have hsi : (dims2 B L K wf).siIdx (ix2 b q) ⟨List.idxOf (1 : Fin 2) (dims2 B L K wf).startIndexMap,
        List.idxOf_lt_length_iff.2 (List.mem_singleton.mpr rfl)⟩ = ix2 q 0 := by
      funext c; refine Fin.ext ?_
      match c with
      | ⟨0, _⟩ => rfl
      | ⟨1, _⟩ => rfl
    rw [hsi]
    rfl

/-- x[:, idx, :] at (b, q, d) is x at (b, idx[q, 0] read signed and clamped into 0 … L − 1, d). -/
theorem gather3_apply {B L D K w : Nat} (hL : 0 < L)
    (wf : GatherDims.WF ⟨3, ![B, L, D]⟩ ⟨2, ![K, 1]⟩ ⟨3, ![B, K, D]⟩ [0, 2] [1] [] [1] [] 1 ![B, 1, D])
    (x : (⟨3, ![B, L, D]⟩ : Shape).Idx → α) (idx : IVec ⟨2, ![K, 1]⟩ w) (b : Fin B) (q : Fin K) (d : Fin D) :
    Host.gather (dims3 B L D K wf) x idx (ix3 b q d)
      = x (ix3 b ⟨min (idx (ix2 q 0)).toInt.toNat (L - 1), by omega⟩ d) := by
  unfold Host.gather
  congr 1
  funext a
  refine Fin.ext ?_
  have hk : (dims3 B L D K wf).sKept = [0, 2] := kept_rank3
  match a with
  | ⟨0, _⟩ =>
    show (dims3 B L D K wf).start (ix3 b q d) idx 0 + (dims3 B L D K wf).batchCoord (ix3 b q d) 0 + (dims3 B L D K wf).offCoord (ix3 b q d) 0 = b.val
    rw [GatherDims.batchCoord_eq_zero _ _ _ List.not_mem_nil]
    unfold GatherDims.start
    rw [dif_neg (show (0 : Fin 3) ∉ ([1] : List (Fin 3)) by decide)]
    unfold GatherDims.offCoord
    rw [dif_pos ((GatherDims.mem_sKept _ _).2 ⟨show (0 : Fin 3) ∉ ([1] : List (Fin 3)) by decide, List.not_mem_nil⟩)]
    simp only [hk, List.idxOf_cons_self, Nat.zero_add]
    rfl
  | ⟨1, _⟩ =>
    show (dims3 B L D K wf).start (ix3 b q d) idx 1 + (dims3 B L D K wf).batchCoord (ix3 b q d) 1 + (dims3 B L D K wf).offCoord (ix3 b q d) 1 = min (idx (ix2 q 0)).toInt.toNat (L - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (dims3 B L D K wf).startIndexMap from List.mem_singleton.mpr rfl)]
    have hsi : (dims3 B L D K wf).siIdx (ix3 b q d) ⟨List.idxOf (1 : Fin 3) (dims3 B L D K wf).startIndexMap,
        List.idxOf_lt_length_iff.2 (List.mem_singleton.mpr rfl)⟩ = ix2 q 0 := by
      funext c; refine Fin.ext ?_
      match c with
      | ⟨0, _⟩ => rfl
      | ⟨1, _⟩ => rfl
    rw [hsi]
    rfl
  | ⟨2, _⟩ =>
    show (dims3 B L D K wf).start (ix3 b q d) idx 2 + (dims3 B L D K wf).batchCoord (ix3 b q d) 2 + (dims3 B L D K wf).offCoord (ix3 b q d) 2 = d.val
    rw [GatherDims.batchCoord_eq_zero _ _ _ List.not_mem_nil]
    unfold GatherDims.start
    rw [dif_neg (show (2 : Fin 3) ∉ ([1] : List (Fin 3)) by decide)]
    unfold GatherDims.offCoord
    rw [dif_pos ((GatherDims.mem_sKept _ _).2 ⟨show (2 : Fin 3) ∉ ([1] : List (Fin 3)) by decide, List.not_mem_nil⟩)]
    have h2 : List.idxOf (2 : Fin 3) ([0, 2] : List (Fin 3)) = 1 := by decide
    simp only [hk, h2, Nat.zero_add]
    rfl

end Cert.LibGatherMid

end
-- ==== Proof.KerReadSrc.lean ====
/-
  The kernel's per-(b, p) scalar table read at an index.

  The host prefix builds src3 : [64, 4191, 1] as the concatenation, along the position axis, of
  * the container part [64, 2112]: per column the 32 data bay[b, 0, c, ·] followed by one 0, the 33 slots of the 64
    columns flattened, so position p = 33 · c + r reads bay[b, 0, c, r] for r < 32 and 0 for r = 32;
  * the T part [64, 2079]: 0 where the token flag is set, elsewhere T[b, 0, ·] gathered at the position's data index,
  with a trailing unit axis added. Each layout operation is read at an index over an arbitrary operand; the flags and
  the data-index column stay variables.
-/
import proofs.«180589_j5643587026959_2_alg».proof.Proof.KerDefs
import proofs.«180589_j5643587026959_2_alg».proof.Proof.Spec
import proofs.«180589_j5643587026959_2_alg».proof.Proof.LibGatherMid
import Idealize.ShloMosaic.Lib.Pipeline.Value
import Idealize.ShloMosaic.Lib.ValueIdx
import Idealize.ShloMosaic.PureOps.Ideal.Laws

noncomputable section

namespace Cert.KernelIdeal.KerHost

open Cert.KernelIdeal Cert.KernelIdeal.Facts₀ Idealize.ShloMosaic Idealize.ShloMosaic.ValueIdx

section Layout
variable {α : Type}

/-- [64,4191] viewed [64,4191,1]. -/
theorem bc_bp_bp1 (X : S64x4191.Idx → α) (b : Fin 64) (p : Fin 4191) (u : Fin 1) :
    broadcastInDim S64x4191x1 ![0, 1] bcast_S64x4191_S64x4191x1_0_1 X (ix3 b p u) = X (ix2 b p) :=
  broadcastInDim_apply _ _ X _ _ (fun a => match a with | ⟨0, _⟩ => rfl | ⟨1, _⟩ => rfl)

/-- A scalar spread to [64,64,1]. -/
theorem bc_0_bc1 (X : S_.Idx → α) (b c : Fin 64) (u : Fin 1) :
    broadcastInDim S64x64x1 ![] bcast_S_S64x64x1 X (ix3 b c u) = X ix0 :=
  broadcastInDim_apply _ _ X _ _ (fun a => a.elim0)

/-- A scalar spread to [64,2079]. -/
theorem bc_0_bq (X : S_.Idx → α) (b : Fin 64) (q : Fin 2079) :
    broadcastInDim S64x2079 ![] bcast_S_S64x2079 X (ix2 b q) = X ix0 :=
  broadcastInDim_apply _ _ X _ _ (fun a => a.elim0)

/-- [2079] viewed [1,2079]. -/
theorem bc_q_1q (X : S2079.Idx → α) (u : Fin 1) (q : Fin 2079) :
    broadcastInDim S1x2079 ![1] bcast_S2079_S1x2079_1 X (ix2 u q) = X (ix1 q) :=
  broadcastInDim_apply _ _ X _ _ (fun a => match a with | ⟨0, _⟩ => rfl)

/-- [1,2079] spread along the leading axis. -/
theorem bc_1q_bq (X : S1x2079.Idx → α) (b : Fin 64) (q : Fin 2079) :
    broadcastInDim S64x2079 ![0, 1] bcast_S1x2079_S64x2079_0_1 X (ix2 b q) = X (ix2 (0 : Fin 1) q) :=
  broadcastInDim_apply _ _ X _ _ (fun a => match a with | ⟨0, _⟩ => rfl | ⟨1, _⟩ => rfl)

/-- [64,1,64,32] with the unit axis dropped. -/
theorem sc_b1cr_bcr (X : S64x1x64x32.Idx → α) (b c : Fin 64) (r : Fin 32) :
    shapeCast S64x64x32 X shapeCasts_S64x1x64x32_S64x64x32 (ix3 b c r) = X (ix4 b (0 : Fin 1) c r) :=
  shapeCast_apply X _ _ _ (by
    rw [Shape.rowMajor_val_four, Shape.rowMajor_val_three]
    show ((b.val * 1 + 0) * 64 + c.val) * 32 + r.val = (b.val * 64 + c.val) * 32 + r.val
    omega)

/-- [64,1,2016] with the unit axis dropped. -/
theorem sc_b1l_bl (X : S64x1x2016.Idx → α) (b : Fin 64) (l : Fin 2016) :
    shapeCast S64x2016 X shapeCasts_S64x1x2016_S64x2016 (ix2 b l) = X (ix3 b (0 : Fin 1) l) :=
  shapeCast_apply X _ _ _ (by
    rw [Shape.rowMajor_val_three, Shape.rowMajor_val_two]
    show (b.val * 1 + 0) * 2016 + l.val = b.val * 2016 + l.val
    omega)

/-- [64,64,33] flattened to [64,2112]: position p is column p / 33, slot p % 33. -/
theorem sc_bcs_bp (X : S64x64x33.Idx → α) (b : Fin 64) (p : Fin 2112) :
    shapeCast S64x2112 X shapeCasts_S64x64x33_S64x2112 (ix2 b p)
      = X (ix3 b (⟨p.val / 33, by omega⟩ : Fin 64) (⟨p.val % 33, by omega⟩ : Fin 33)) :=
  shapeCast_apply X _ _ _ (by
    rw [Shape.rowMajor_val_three, Shape.rowMajor_val_two]
    show (b.val * 64 + p.val / 33) * 33 + p.val % 33 = b.val * 2112 + p.val
    omega)

/-- The slot concatenation at a slot below 32 reads the data there. -/
theorem slotCat_left (X : S64x64x32.Idx → α) (Y : S64x64x1.Idx → α) (b c : Fin 64) (s : Fin 33) (hs : s.val < 32) :
    concatenate S64x64x33 2 [⟨S64x64x32, X⟩, ⟨S64x64x1, Y⟩] concatenates_S64x64x32_S64x64x1_S64x64x33_d2 (ix3 b c s)
      = X (ix3 b c (⟨s.val, hs⟩ : Fin 32)) :=
  concatenate_pair_apply_left (t := S64x64x33) (s₁ := S64x64x32) (s₂ := S64x64x1) (2 : Fin 3) X Y
    concatenates_S64x64x32_S64x64x1_S64x64x33_d2 (ix3 b c s) rfl (ix3 b c (⟨s.val, hs⟩ : Fin 32))
    (fun a => match a with | ⟨0, _⟩ => rfl | ⟨1, _⟩ => rfl | ⟨2, _⟩ => rfl)

/-- The slot concatenation at slot 32 reads the second piece at its only slot. -/
theorem slotCat_right (X : S64x64x32.Idx → α) (Y : S64x64x1.Idx → α) (b c : Fin 64) (s : Fin 33) (hs : ¬ s.val < 32) :
    concatenate S64x64x33 2 [⟨S64x64x32, X⟩, ⟨S64x64x1, Y⟩] concatenates_S64x64x32_S64x64x1_S64x64x33_d2 (ix3 b c s)
      = Y (ix3 b c (0 : Fin 1)) :=
  concatenate_pair_apply_right (t := S64x64x33) (s₁ := S64x64x32) (s₂ := S64x64x1) (2 : Fin 3) X Y
    concatenates_S64x64x32_S64x64x1_S64x64x33_d2 (ix3 b c s) rfl rfl (ix3 b c (0 : Fin 1))
    (fun a ha => match a with | ⟨0, _⟩ => rfl | ⟨1, _⟩ => rfl | ⟨2, _⟩ => absurd rfl ha)
    (by have := s.isLt; show 0 + 32 = s.val; omega)

/-- The position concatenation at a position below 2112 reads the container part there. -/
theorem posCat_left (X : S64x2112.Idx → α) (Y : S64x2079.Idx → α) (b : Fin 64) (p : Fin 4191) (hp : p.val < 2112) :
    concatenate S64x4191 1 [⟨S64x2112, X⟩, ⟨S64x2079, Y⟩] concatenates_S64x2112_S64x2079_S64x4191_d1 (ix2 b p)
      = X (ix2 b (⟨p.val, hp⟩ : Fin 2112)) :=
  concatenate_pair_apply_left (t := S64x4191) (s₁ := S64x2112) (s₂ := S64x2079) (1 : Fin 2) X Y
    concatenates_S64x2112_S64x2079_S64x4191_d1 (ix2 b p) rfl (ix2 b (⟨p.val, hp⟩ : Fin 2112))
    (fun a => match a with | ⟨0, _⟩ => rfl | ⟨1, _⟩ => rfl)

/-- The position concatenation at a position from 2112 on reads the T part, 2112 less. -/
theorem posCat_right (X : S64x2112.Idx → α) (Y : S64x2079.Idx → α) (b : Fin 64) (p : Fin 4191) (hp : ¬ p.val < 2112) :
    concatenate S64x4191 1 [⟨S64x2112, X⟩, ⟨S64x2079, Y⟩] concatenates_S64x2112_S64x2079_S64x4191_d1 (ix2 b p)
      = Y (ix2 b (⟨p.val - 2112, by have := p.isLt; omega⟩ : Fin 2079)) :=
  concatenate_pair_apply_right (t := S64x4191) (s₁ := S64x2112) (s₂ := S64x2079) (1 : Fin 2) X Y
    concatenates_S64x2112_S64x2079_S64x4191_d1 (ix2 b p) rfl rfl (ix2 b (⟨p.val - 2112, by have := p.isLt; omega⟩ : Fin 2079))
    (fun a ha => match a with | ⟨0, _⟩ => rfl | ⟨1, _⟩ => absurd rfl ha)
    (by show p.val - 2112 + 2112 = p.val; omega)

end Layout

/-- The 0 the host prefix writes is the extended real 0. -/
theorem zero_const : constant (F := Ideal) S_ .f32 0x00000000#32 ix0 = (0 : EReal) :=
  (constant_apply _ _).trans Ideal.ofBits_zero_f32

/-- The container part at (b, p). -/
theorem contSrcK_apply (bay : FVec Ideal S64x1x64x32 .f32) (b : Fin 64) (p : Fin 4191) (h : p.val < 2112) :
    contSrcK bay (ix2 b (⟨p.val, h⟩ : Fin 2112))
      = if hr : p.val % 33 < 32 then bay (ix4 b 0 (Cert.Spec.colOf p h) ⟨p.val % 33, hr⟩) else 0 := by
  unfold contSrcK
  rw [sc_bcs_bp]
  by_cases hr : p.val % 33 < 32
  · rw [dif_pos hr]
    exact (slotCat_left _ _ b _ _ hr).trans (sc_b1cr_bcr bay b _ _)
  · rw [dif_neg hr]
    exact (slotCat_right _ _ b _ _ hr).trans ((bc_0_bc1 _ b _ 0).trans zero_const)

/-- The T part at (b, q). -/
theorem tSrcK_apply (T : FVec Ideal S64x1x2016 .f32) (tokc : IVec S2079 1) (dcol : IVec S2079x1 32) (b : Fin 64) (q : Fin 2079) :
    tSrcK T tokc dcol (ix2 b q) = Scalar.select (tokc (ix1 q)) 0 (T (ix3 b 0 (Cert.Spec.dataPos dcol q))) := by
  unfold tSrcK
  rw [select_apply, bc_1q_bq, bc_q_1q, bc_0_bq, zero_const]
  refine congrArg (Scalar.select (tokc (ix1 q)) 0) ?_
  exact (Cert.LibGatherMid.gather2_apply (by decide) _ _ dcol b q).trans (sc_b1l_bl T b _)

/-- The scalar table over given flags and data-index column, at (b, p, 0). -/
theorem src3Of_apply (bay : FVec Ideal S64x1x64x32 .f32) (T : FVec Ideal S64x1x2016 .f32) (tokc : IVec S2079 1) (dcol : IVec S2079x1 32)
    (b : Fin 64) (p : Fin 4191) :
    src3Of bay T tokc dcol (ix3 b p 0) = Cert.Spec.srcAt bay T tokc dcol b p := by
  unfold src3Of Cert.Spec.srcAt
  rw [bc_bp_bp1]
  by_cases h : p.val < 2112
  · rw [dif_pos h, posCat_left _ _ b p h]
    exact contSrcK_apply bay b p h
  · rw [dif_neg h, posCat_right _ _ b p h]
    exact tSrcK_apply T tokc dcol b _

/-- The scalar table the program builds, at (b, p, 0). -/
theorem src3K_apply (bay : FVec Ideal S64x1x64x32 .f32) (T : FVec Ideal S64x1x2016 .f32) (b : Fin 64) (p : Fin 4191) :
    src3K bay T (ix3 b p 0) = Cert.Spec.srcAt bay T tokcK dcolK b p :=
  src3Of_apply bay T tokcK dcolK b p

end Cert.KernelIdeal.KerHost

end
-- ==== Proof.RefRun.lean ====
/-
  The reference program's @main as the list of its 59 host operations (the three operations of the outlined
  `where` stand in its call's place), and its run read back: every weakly fair execution terminates with the
  result buffer at `refOut` (the composition of named stages, stated beside this module) of the arguments' launch
  contents, the arguments unchanged.
-/
import proofs.«180589_j5643587026959_2_alg».proof.Proof.RefStages
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The operations -/

/-- @main's 59 operations, in order; the outlined `where`'s three stand where it is called. -/
abbrev ops : List (HloOp τ sig (Elt F)) :=
  [ StableHlo.nullary main_c (fun i => lit0 (S64.rowMajor i)),
    StableHlo.nullary main_c_0 (fun i => lit1 (S2079.rowMajor i)),
    StableHlo.nullary main_c_1 (fun i => lit2 (S2079.rowMajor i)),
    StableHlo.nullary main_c_2 (fun i => lit3 (S2079.rowMajor i)),
    StableHlo.reshape main_arg0 main_v0 rfl shapeCasts_S64x1x64x32_S64x64x32,
    StableHlo.reshape main_arg1 main_v1 rfl shapeCasts_S64x1x2016_S64x2016,
    StableHlo.unary main_v0 main_v2 (broadcastInDim S64x64x32x1 ![0, 1, 2] bcast_S64x64x32_S64x64x32x1_0_1_2 : (⟨S64x64x32, .f32⟩ : BufTy).Contents (Elt F) → (⟨S64x64x32x1, .f32⟩ : BufTy).Contents (Elt F)),
    StableHlo.unary main_arg2 main_v3 (broadcastInDim S1x1x1x256 ![3] bcast_S256_S1x1x1x256_3 : (⟨S256, .f32⟩ : BufTy).Contents (Elt F) → (⟨S1x1x1x256, .f32⟩ : BufTy).Contents (Elt F)),
    StableHlo.unary main_v2 main_v4 (broadcastInDim S64x64x32x256 ![0, 1, 2, 3] bcast_S64x64x32x1_S64x64x32x256_0_1_2_3 : (⟨S64x64x32x1, .f32⟩ : BufTy).Contents (Elt F) → (⟨S64x64x32x256, .f32⟩ : BufTy).Contents (Elt F)),
    StableHlo.unary main_v3 main_v5 (broadcastInDim S64x64x32x256 ![0, 1, 2, 3] bcast_S1x1x1x256_S64x64x32x256_0_1_2_3 : (⟨S1x1x1x256, .f32⟩ : BufTy).Contents (Elt F) → (⟨S64x64x32x256, .f32⟩ : BufTy).Contents (Elt F)),
    StableHlo.binary main_v4 main_v5 main_v6 (mulf : (⟨S64x64x32x256, .f32⟩ : BufTy).Contents (Elt F) → (⟨S64x64x32x256, .f32⟩ : BufTy).Contents (Elt F) → (⟨S64x64x32x256, .f32⟩ : BufTy).Contents (Elt F)),
    StableHlo.unary main_arg3 main_v7 (broadcastInDim S1x1x1x256 ![3] bcast_S256_S1x1x1x256_3 : (⟨S256, .f32⟩ : BufTy).Contents (Elt F) → (⟨S1x1x1x256, .f32⟩ : BufTy).Contents (Elt F)),
    StableHlo.unary main_v7 main_v8 (broadcastInDim S64x64x32x256 ![0, 1, 2, 3] bcast_S1x1x1x256_S64x64x32x256_0_1_2_3 : (⟨S1x1x1x256, .f32⟩ : BufTy).Contents (Elt F) → (⟨S64x64x32x256, .f32⟩ : BufTy).Contents (Elt F)),
    StableHlo.binary main_v6 main_v8 main_v9 (addf : (⟨S64x64x32x256, .f32⟩ : BufTy).Contents (Elt F) → (⟨S64x64x32x256, .f32⟩ : BufTy).Contents (Elt F) → (⟨S64x64x32x256, .f32⟩ : BufTy).Contents (Elt F)),
    StableHlo.nullary main_c_3 (constantI S_ 32 0#32),
    StableHlo.unary main_c_3 main_v10 (broadcastInDim S64 ![] bcast_S_S64 : (⟨S_, .i32⟩ : BufTy).Contents (Elt F) → (⟨S64, .i32⟩ : BufTy).Contents (Elt F)),
    StableHlo.binary main_c main_v10 main_v11 (cmpi .slt : (⟨S64, .i32⟩ : BufTy).Contents (Elt F) → (⟨S64, .i32⟩ : BufTy).Contents (Elt F) → (⟨S64, .i1⟩ : BufTy).Contents (Elt F)),
    StableHlo.nullary main_c_4 (constantI S_ 32 4#32),
    StableHlo.unary main_c_4 main_v12 (broadcastInDim S64 ![] bcast_S_S64 : (⟨S_, .i32⟩ : BufTy).Contents (Elt F) → (⟨S64, .i32⟩ : BufTy).Contents (Elt F)),
    StableHlo.binary main_c main_v12 main_v13 (addi : (⟨S64, .i32⟩ : BufTy).Contents (Elt F) → (⟨S64, .i32⟩ : BufTy).Contents (Elt F) → (⟨S64, .i32⟩ : BufTy).Contents (Elt F)),
    StableHlo.ternary main_v11 main_v13 main_c main_v14 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    StableHlo.unary main_v14 main_v15 (broadcastInDim S64x1 ![0] bcast_S64_S64x1_0 : (⟨S64, .i32⟩ : BufTy).Contents (Elt F) → (⟨S64x1, .i32⟩ : BufTy).Contents (Elt F)),
    StableHlo.binary main_arg6 main_v15 main_v16 ((fun x i => Host.gather gather_S4x256_S64x1_S64x256_1_0_n_n_0_1_1256 x i) : (⟨S4x256, .f32⟩ : BufTy).Contents (Elt F) → (⟨S64x1, .i32⟩ : BufTy).Contents (Elt F) → (⟨S64x256, .f32⟩ : BufTy).Contents (Elt F)),
    StableHlo.unary main_v16 main_v17 (broadcastInDim S1x64x1x256 ![1, 3] bcast_S64x256_S1x64x1x256_1_3 : (⟨S64x256, .f32⟩ : BufTy).Contents (Elt F) → (⟨S1x64x1x256, .f32⟩ : BufTy).Contents (Elt F)),
    StableHlo.unary main_v17 main_v18 (broadcastInDim S64x64x1x256 ![0, 1, 2, 3] bcast_S1x64x1x256_S64x64x1x256_0_1_2_3 : (⟨S1x64x1x256, .f32⟩ : BufTy).Contents (Elt F) → (⟨S64x64x1x256, .f32⟩ : BufTy).Contents (Elt F)),
    StableHlo.binary main_v9 main_v18 main_v19 ((fun a b => concatenate S64x64x33x256 2 [⟨S64x64x32x256, a⟩, ⟨S64x64x1x256, b⟩] concatenates_S64x64x32x256_S64x64x1x256_S64x64x33x256_d2) : (⟨S64x64x32x256, .f32⟩ : BufTy).Contents (Elt F) → (⟨S64x64x1x256, .f32⟩ : BufTy).Contents (Elt F) → (⟨S64x64x33x256, .f32⟩ : BufTy).Contents (Elt F)),
    StableHlo.reshape main_v19 main_v20 rfl shapeCasts_S64x64x33x256_S64x2112x256,
    StableHlo.unary main_v1 main_v21 (broadcastInDim S64x2016x1 ![0, 1] bcast_S64x2016_S64x2016x1_0_1 : (⟨S64x2016, .f32⟩ : BufTy).Contents (Elt F) → (⟨S64x2016x1, .f32⟩ : BufTy).Contents (Elt F)),
    StableHlo.unary main_arg4 main_v22 (broadcastInDim S1x1x256 ![2] bcast_S256_S1x1x256_2 : (⟨S256, .f32⟩ : BufTy).Contents (Elt F) → (⟨S1x1x256, .f32⟩ : BufTy).Contents (Elt F)),
    StableHlo.unary main_v21 main_v23 (broadcastInDim S64x2016x256 ![0, 1, 2] bcast_S64x2016x1_S64x2016x256_0_1_2 : (⟨S64x2016x1, .f32⟩ : BufTy).Contents (Elt F) → (⟨S64x2016x256, .f32⟩ : BufTy).Contents (Elt F)),
    StableHlo.unary main_v22 main_v24 (broadcastInDim S64x2016x256 ![0, 1, 2] bcast_S1x1x256_S64x2016x256_0_1_2 : (⟨S1x1x256, .f32⟩ : BufTy).Contents (Elt F) → (⟨S64x2016x256, .f32⟩ : BufTy).Contents (Elt F)),
    StableHlo.binary main_v23 main_v24 main_v25 (mulf : (⟨S64x2016x256, .f32⟩ : BufTy).Contents (Elt F) → (⟨S64x2016x256, .f32⟩ : BufTy).Contents (Elt F) → (⟨S64x2016x256, .f32⟩ : BufTy).Contents (Elt F)),
    StableHlo.unary main_arg5 main_v26 (broadcastInDim S1x1x256 ![2] bcast_S256_S1x1x256_2 : (⟨S256, .f32⟩ : BufTy).Contents (Elt F) → (⟨S1x1x256, .f32⟩ : BufTy).Contents (Elt F)),
    StableHlo.unary main_v26 main_v27 (broadcastInDim S64x2016x256 ![0, 1, 2] bcast_S1x1x256_S64x2016x256_0_1_2 : (⟨S1x1x256, .f32⟩ : BufTy).Contents (Elt F) → (⟨S64x2016x256, .f32⟩ : BufTy).Contents (Elt F)),
    StableHlo.binary main_v25 main_v27 main_v28 (addf : (⟨S64x2016x256, .f32⟩ : BufTy).Contents (Elt F) → (⟨S64x2016x256, .f32⟩ : BufTy).Contents (Elt F) → (⟨S64x2016x256, .f32⟩ : BufTy).Contents (Elt F)),
    StableHlo.nullary main_c_5 (constantI S_ 32 0#32),
    StableHlo.unary main_c_5 main_v29 (broadcastInDim S2079 ![] bcast_S_S2079 : (⟨S_, .i32⟩ : BufTy).Contents (Elt F) → (⟨S2079, .i32⟩ : BufTy).Contents (Elt F)),
    StableHlo.binary main_c_0 main_v29 main_v30 (cmpi .slt : (⟨S2079, .i32⟩ : BufTy).Contents (Elt F) → (⟨S2079, .i32⟩ : BufTy).Contents (Elt F) → (⟨S2079, .i1⟩ : BufTy).Contents (Elt F)),
    StableHlo.nullary main_c_6 (constantI S_ 32 4#32),
    StableHlo.unary main_c_6 main_v31 (broadcastInDim S2079 ![] bcast_S_S2079 : (⟨S_, .i32⟩ : BufTy).Contents (Elt F) → (⟨S2079, .i32⟩ : BufTy).Contents (Elt F)),
    StableHlo.binary main_c_0 main_v31 main_v32 (addi : (⟨S2079, .i32⟩ : BufTy).Contents (Elt F) → (⟨S2079, .i32⟩ : BufTy).Contents (Elt F) → (⟨S2079, .i32⟩ : BufTy).Contents (Elt F)),
    StableHlo.ternary main_v30 main_v32 main_c_0 main_v33 (select : (⟨S2079, .i1⟩ : BufTy).Contents (Elt F) → (⟨S2079, .i32⟩ : BufTy).Contents (Elt F) → (⟨S2079, .i32⟩ : BufTy).Contents (Elt F) → (⟨S2079, .i32⟩ : BufTy).Contents (Elt F)),
    StableHlo.unary main_v33 main_v34 (broadcastInDim S2079x1 ![0] bcast_S2079_S2079x1_0 : (⟨S2079, .i32⟩ : BufTy).Contents (Elt F) → (⟨S2079x1, .i32⟩ : BufTy).Contents (Elt F)),
    StableHlo.binary main_arg6 main_v34 main_v35 ((fun x i => Host.gather gather_S4x256_S2079x1_S2079x256_1_0_n_n_0_1_1256 x i) : (⟨S4x256, .f32⟩ : BufTy).Contents (Elt F) → (⟨S2079x1, .i32⟩ : BufTy).Contents (Elt F) → (⟨S2079x256, .f32⟩ : BufTy).Contents (Elt F)),
    StableHlo.unary main_c_1 main_v36 (broadcastInDim S2079x1 ![0] bcast_S2079_S2079x1_0 : (⟨S2079, .i1⟩ : BufTy).Contents (Elt F) → (⟨S2079x1, .i1⟩ : BufTy).Contents (Elt F)),
    StableHlo.unary main_v35 main_v37 (broadcastInDim S1x2079x256 ![1, 2] bcast_S2079x256_S1x2079x256_1_2 : (⟨S2079x256, .f32⟩ : BufTy).Contents (Elt F) → (⟨S1x2079x256, .f32⟩ : BufTy).Contents (Elt F)),
    StableHlo.nullary main_c_7 (constantI S_ 32 0#32),
    StableHlo.unary main_c_7 main_v38 (broadcastInDim S2079 ![] bcast_S_S2079 : (⟨S_, .i32⟩ : BufTy).Contents (Elt F) → (⟨S2079, .i32⟩ : BufTy).Contents (Elt F)),
    StableHlo.binary main_c_2 main_v38 main_v39 (cmpi .slt : (⟨S2079, .i32⟩ : BufTy).Contents (Elt F) → (⟨S2079, .i32⟩ : BufTy).Contents (Elt F) → (⟨S2079, .i1⟩ : BufTy).Contents (Elt F)),
    StableHlo.nullary main_c_8 (constantI S_ 32 2016#32),
    StableHlo.unary main_c_8 main_v40 (broadcastInDim S2079 ![] bcast_S_S2079 : (⟨S_, .i32⟩ : BufTy).Contents (Elt F) → (⟨S2079, .i32⟩ : BufTy).Contents (Elt F)),
    StableHlo.binary main_c_2 main_v40 main_v41 (addi : (⟨S2079, .i32⟩ : BufTy).Contents (Elt F) → (⟨S2079, .i32⟩ : BufTy).Contents (Elt F) → (⟨S2079, .i32⟩ : BufTy).Contents (Elt F)),
    StableHlo.ternary main_v39 main_v41 main_c_2 main_v42 (select : (⟨S2079, .i1⟩ : BufTy).Contents (Elt F) → (⟨S2079, .i32⟩ : BufTy).Contents (Elt F) → (⟨S2079, .i32⟩ : BufTy).Contents (Elt F) → (⟨S2079, .i32⟩ : BufTy).Contents (Elt F)),
    StableHlo.unary main_v42 main_v43 (broadcastInDim S2079x1 ![0] bcast_S2079_S2079x1_0 : (⟨S2079, .i32⟩ : BufTy).Contents (Elt F) → (⟨S2079x1, .i32⟩ : BufTy).Contents (Elt F)),
    StableHlo.binary main_v28 main_v43 main_v44 ((fun x i => Host.gather gather_S64x2016x256_S2079x1_S64x2079x256_02_1_n_n_1_1_641256 x i) : (⟨S64x2016x256, .f32⟩ : BufTy).Contents (Elt F) → (⟨S2079x1, .i32⟩ : BufTy).Contents (Elt F) → (⟨S64x2079x256, .f32⟩ : BufTy).Contents (Elt F)),
    StableHlo.TRef.unary (.of main_v36 : StableHlo.TRef sig ⟨S2079x1, .i1⟩) (.of main_call0_v0 : StableHlo.TRef sig ⟨S64x2079x256, .i1⟩) (broadcastInDim S64x2079x256 ![1, 2] bcast_S2079x1_S64x2079x256_1_2),
    StableHlo.TRef.unary (.of main_v37 : StableHlo.TRef sig ⟨S1x2079x256, .f32⟩) (.of main_call0_v1 : StableHlo.TRef sig ⟨S64x2079x256, .f32⟩) (broadcastInDim S64x2079x256 ![0, 1, 2] bcast_S1x2079x256_S64x2079x256_0_1_2),
    StableHlo.TRef.ternary (.of main_call0_v0 : StableHlo.TRef sig ⟨S64x2079x256, .i1⟩) (.of main_call0_v1 : StableHlo.TRef sig ⟨S64x2079x256, .f32⟩) (.of main_v44 : StableHlo.TRef sig ⟨S64x2079x256, .f32⟩) (.of main_v45 : StableHlo.TRef sig ⟨S64x2079x256, .f32⟩) select,
    StableHlo.binary main_v20 main_v45 main_v46 ((fun a b => concatenate S64x4191x256 1 [⟨S64x2112x256, a⟩, ⟨S64x2079x256, b⟩] concatenates_S64x2112x256_S64x2079x256_S64x4191x256_d1) : (⟨S64x2112x256, .f32⟩ : BufTy).Contents (Elt F) → (⟨S64x2079x256, .f32⟩ : BufTy).Contents (Elt F) → (⟨S64x4191x256, .f32⟩ : BufTy).Contents (Elt F)) ]

set_option maxRecDepth 2048 in
/-- @main is that straight line: the outlined function's definition unfolded at its call, both sides are one chain of
    steps once sequencing is reassociated. -/
theorem main_eq (c : Dev nD) : main (F := F) c = seq ops := by
  simp only [main, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., nullary_bufs_sub .., nullary_bufs_sub .., nullary_bufs_sub .., reshape_bufs_sub .., reshape_bufs_sub ..,
    unary_bufs_sub .., unary_bufs_sub .., unary_bufs_sub .., unary_bufs_sub .., binary_bufs_sub .., unary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., unary_bufs_sub ..,
    unary_bufs_sub .., binary_bufs_sub .., reshape_bufs_sub .., unary_bufs_sub .., unary_bufs_sub .., unary_bufs_sub ..,
    unary_bufs_sub .., binary_bufs_sub .., unary_bufs_sub .., unary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., unary_bufs_sub .., unary_bufs_sub .., nullary_bufs_sub .., unary_bufs_sub ..,
    binary_bufs_sub .., nullary_bufs_sub .., unary_bufs_sub .., binary_bufs_sub .., ternary_bufs_sub .., unary_bufs_sub ..,
    binary_bufs_sub .., unary_bufs_sub .., unary_bufs_sub .., ternary_bufs_sub .., binary_bufs_sub ..⟩

/-! ## The line in three parts

The first 27 operations end with the container sequence, the next 31 with the T sequence, the last one joins the two.
The fold over the whole line is the fold over the parts in turn, and each part's fold is read off on its own. -/

/-- The fold over a concatenation is the folds in turn. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- The tables, the two unit-axis reshapes and the container sequence. -/
abbrev opsA : List (HloOp τ sig (Elt F)) :=
  [ StableHlo.nullary main_c (fun i => lit0 (S64.rowMajor i)),
    StableHlo.nullary main_c_0 (fun i => lit1 (S2079.rowMajor i)),
    StableHlo.nullary main_c_1 (fun i => lit2 (S2079.rowMajor i)),
    StableHlo.nullary main_c_2 (fun i => lit3 (S2079.rowMajor i)),
    StableHlo.reshape main_arg0 main_v0 rfl shapeCasts_S64x1x64x32_S64x64x32,
    StableHlo.reshape main_arg1 main_v1 rfl shapeCasts_S64x1x2016_S64x2016,
    StableHlo.unary main_v0 main_v2 (broadcastInDim S64x64x32x1 ![0, 1, 2] bcast_S64x64x32_S64x64x32x1_0_1_2 : (⟨S64x64x32, .f32⟩ : BufTy).Contents (Elt F) → (⟨S64x64x32x1, .f32⟩ : BufTy).Contents (Elt F)),
    StableHlo.unary main_arg2 main_v3 (broadcastInDim S1x1x1x256 ![3] bcast_S256_S1x1x1x256_3 : (⟨S256, .f32⟩ : BufTy).Contents (Elt F) → (⟨S1x1x1x256, .f32⟩ : BufTy).Contents (Elt F)),
    StableHlo.unary main_v2 main_v4 (broadcastInDim S64x64x32x256 ![0, 1, 2, 3] bcast_S64x64x32x1_S64x64x32x256_0_1_2_3 : (⟨S64x64x32x1, .f32⟩ : BufTy).Contents (Elt F) → (⟨S64x64x32x256, .f32⟩ : BufTy).Contents (Elt F)),
    StableHlo.unary main_v3 main_v5 (broadcastInDim S64x64x32x256 ![0, 1, 2, 3] bcast_S1x1x1x256_S64x64x32x256_0_1_2_3 : (⟨S1x1x1x256, .f32⟩ : BufTy).Contents (Elt F) → (⟨S64x64x32x256, .f32⟩ : BufTy).Contents (Elt F)),
    StableHlo.binary main_v4 main_v5 main_v6 (mulf : (⟨S64x64x32x256, .f32⟩ : BufTy).Contents (Elt F) → (⟨S64x64x32x256, .f32⟩ : BufTy).Contents (Elt F) → (⟨S64x64x32x256, .f32⟩ : BufTy).Contents (Elt F)),
    StableHlo.unary main_arg3 main_v7 (broadcastInDim S1x1x1x256 ![3] bcast_S256_S1x1x1x256_3 : (⟨S256, .f32⟩ : BufTy).Contents (Elt F) → (⟨S1x1x1x256, .f32⟩ : BufTy).Contents (Elt F)),
    StableHlo.unary main_v7 main_v8 (broadcastInDim S64x64x32x256 ![0, 1, 2, 3] bcast_S1x1x1x256_S64x64x32x256_0_1_2_3 : (⟨S1x1x1x256, .f32⟩ : BufTy).Contents (Elt F) → (⟨S64x64x32x256, .f32⟩ : BufTy).Contents (Elt F)),
    StableHlo.binary main_v6 main_v8 main_v9 (addf : (⟨S64x64x32x256, .f32⟩ : BufTy).Contents (Elt F) → (⟨S64x64x32x256, .f32⟩ : BufTy).Contents (Elt F) → (⟨S64x64x32x256, .f32⟩ : BufTy).Contents (Elt F)),
    StableHlo.nullary main_c_3 (constantI S_ 32 0#32),
    StableHlo.unary main_c_3 main_v10 (broadcastInDim S64 ![] bcast_S_S64 : (⟨S_, .i32⟩ : BufTy).Contents (Elt F) → (⟨S64, .i32⟩ : BufTy).Contents (Elt F)),
    StableHlo.binary main_c main_v10 main_v11 (cmpi .slt : (⟨S64, .i32⟩ : BufTy).Contents (Elt F) → (⟨S64, .i32⟩ : BufTy).Contents (Elt F) → (⟨S64, .i1⟩ : BufTy).Contents (Elt F)),
    StableHlo.nullary main_c_4 (constantI S_ 32 4#32),
    StableHlo.unary main_c_4 main_v12 (broadcastInDim S64 ![] bcast_S_S64 : (⟨S_, .i32⟩ : BufTy).Contents (Elt F) → (⟨S64, .i32⟩ : BufTy).Contents (Elt F)),
    StableHlo.binary main_c main_v12 main_v13 (addi : (⟨S64, .i32⟩ : BufTy).Contents (Elt F) → (⟨S64, .i32⟩ : BufTy).Contents (Elt F) → (⟨S64, .i32⟩ : BufTy).Contents (Elt F)),
    StableHlo.ternary main_v11 main_v13 main_c main_v14 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    StableHlo.unary main_v14 main_v15 (broadcastInDim S64x1 ![0] bcast_S64_S64x1_0 : (⟨S64, .i32⟩ : BufTy).Contents (Elt F) → (⟨S64x1, .i32⟩ : BufTy).Contents (Elt F)),
    StableHlo.binary main_arg6 main_v15 main_v16 ((fun x i => Host.gather gather_S4x256_S64x1_S64x256_1_0_n_n_0_1_1256 x i) : (⟨S4x256, .f32⟩ : BufTy).Contents (Elt F) → (⟨S64x1, .i32⟩ : BufTy).Contents (Elt F) → (⟨S64x256, .f32⟩ : BufTy).Contents (Elt F)),
    StableHlo.unary main_v16 main_v17 (broadcastInDim S1x64x1x256 ![1, 3] bcast_S64x256_S1x64x1x256_1_3 : (⟨S64x256, .f32⟩ : BufTy).Contents (Elt F) → (⟨S1x64x1x256, .f32⟩ : BufTy).Contents (Elt F)),
    StableHlo.unary main_v17 main_v18 (broadcastInDim S64x64x1x256 ![0, 1, 2, 3] bcast_S1x64x1x256_S64x64x1x256_0_1_2_3 : (⟨S1x64x1x256, .f32⟩ : BufTy).Contents (Elt F) → (⟨S64x64x1x256, .f32⟩ : BufTy).Contents (Elt F)),
    StableHlo.binary main_v9 main_v18 main_v19 ((fun a b => concatenate S64x64x33x256 2 [⟨S64x64x32x256, a⟩, ⟨S64x64x1x256, b⟩] concatenates_S64x64x32x256_S64x64x1x256_S64x64x33x256_d2) : (⟨S64x64x32x256, .f32⟩ : BufTy).Contents (Elt F) → (⟨S64x64x1x256, .f32⟩ : BufTy).Contents (Elt F) → (⟨S64x64x33x256, .f32⟩ : BufTy).Contents (Elt F)),
    StableHlo.reshape main_v19 main_v20 rfl shapeCasts_S64x64x33x256_S64x2112x256 ]

/-- The T sequence. -/
abbrev opsB : List (HloOp τ sig (Elt F)) :=
  [ StableHlo.unary main_v1 main_v21 (broadcastInDim S64x2016x1 ![0, 1] bcast_S64x2016_S64x2016x1_0_1 : (⟨S64x2016, .f32⟩ : BufTy).Contents (Elt F) → (⟨S64x2016x1, .f32⟩ : BufTy).Contents (Elt F)),
    StableHlo.unary main_arg4 main_v22 (broadcastInDim S1x1x256 ![2] bcast_S256_S1x1x256_2 : (⟨S256, .f32⟩ : BufTy).Contents (Elt F) → (⟨S1x1x256, .f32⟩ : BufTy).Contents (Elt F)),
    StableHlo.unary main_v21 main_v23 (broadcastInDim S64x2016x256 ![0, 1, 2] bcast_S64x2016x1_S64x2016x256_0_1_2 : (⟨S64x2016x1, .f32⟩ : BufTy).Contents (Elt F) → (⟨S64x2016x256, .f32⟩ : BufTy).Contents (Elt F)),
    StableHlo.unary main_v22 main_v24 (broadcastInDim S64x2016x256 ![0, 1, 2] bcast_S1x1x256_S64x2016x256_0_1_2 : (⟨S1x1x256, .f32⟩ : BufTy).Contents (Elt F) → (⟨S64x2016x256, .f32⟩ : BufTy).Contents (Elt F)),
    StableHlo.binary main_v23 main_v24 main_v25 (mulf : (⟨S64x2016x256, .f32⟩ : BufTy).Contents (Elt F) → (⟨S64x2016x256, .f32⟩ : BufTy).Contents (Elt F) → (⟨S64x2016x256, .f32⟩ : BufTy).Contents (Elt F)),
    StableHlo.unary main_arg5 main_v26 (broadcastInDim S1x1x256 ![2] bcast_S256_S1x1x256_2 : (⟨S256, .f32⟩ : BufTy).Contents (Elt F) → (⟨S1x1x256, .f32⟩ : BufTy).Contents (Elt F)),
    StableHlo.unary main_v26 main_v27 (broadcastInDim S64x2016x256 ![0, 1, 2] bcast_S1x1x256_S64x2016x256_0_1_2 : (⟨S1x1x256, .f32⟩ : BufTy).Contents (Elt F) → (⟨S64x2016x256, .f32⟩ : BufTy).Contents (Elt F)),
    StableHlo.binary main_v25 main_v27 main_v28 (addf : (⟨S64x2016x256, .f32⟩ : BufTy).Contents (Elt F) → (⟨S64x2016x256, .f32⟩ : BufTy).Contents (Elt F) → (⟨S64x2016x256, .f32⟩ : BufTy).Contents (Elt F)),
    StableHlo.nullary main_c_5 (constantI S_ 32 0#32),
    StableHlo.unary main_c_5 main_v29 (broadcastInDim S2079 ![] bcast_S_S2079 : (⟨S_, .i32⟩ : BufTy).Contents (Elt F) → (⟨S2079, .i32⟩ : BufTy).Contents (Elt F)),
    StableHlo.binary main_c_0 main_v29 main_v30 (cmpi .slt : (⟨S2079, .i32⟩ : BufTy).Contents (Elt F) → (⟨S2079, .i32⟩ : BufTy).Contents (Elt F) → (⟨S2079, .i1⟩ : BufTy).Contents (Elt F)),
    StableHlo.nullary main_c_6 (constantI S_ 32 4#32),
    StableHlo.unary main_c_6 main_v31 (broadcastInDim S2079 ![] bcast_S_S2079 : (⟨S_, .i32⟩ : BufTy).Contents (Elt F) → (⟨S2079, .i32⟩ : BufTy).Contents (Elt F)),
    StableHlo.binary main_c_0 main_v31 main_v32 (addi : (⟨S2079, .i32⟩ : BufTy).Contents (Elt F) → (⟨S2079, .i32⟩ : BufTy).Contents (Elt F) → (⟨S2079, .i32⟩ : BufTy).Contents (Elt F)),
    StableHlo.ternary main_v30 main_v32 main_c_0 main_v33 (select : (⟨S2079, .i1⟩ : BufTy).Contents (Elt F) → (⟨S2079, .i32⟩ : BufTy).Contents (Elt F) → (⟨S2079, .i32⟩ : BufTy).Contents (Elt F) → (⟨S2079, .i32⟩ : BufTy).Contents (Elt F)),
    StableHlo.unary main_v33 main_v34 (broadcastInDim S2079x1 ![0] bcast_S2079_S2079x1_0 : (⟨S2079, .i32⟩ : BufTy).Contents (Elt F) → (⟨S2079x1, .i32⟩ : BufTy).Contents (Elt F)),
    StableHlo.binary main_arg6 main_v34 main_v35 ((fun x i => Host.gather gather_S4x256_S2079x1_S2079x256_1_0_n_n_0_1_1256 x i) : (⟨S4x256, .f32⟩ : BufTy).Contents (Elt F) → (⟨S2079x1, .i32⟩ : BufTy).Contents (Elt F) → (⟨S2079x256, .f32⟩ : BufTy).Contents (Elt F)),
    StableHlo.unary main_c_1 main_v36 (broadcastInDim S2079x1 ![0] bcast_S2079_S2079x1_0 : (⟨S2079, .i1⟩ : BufTy).Contents (Elt F) → (⟨S2079x1, .i1⟩ : BufTy).Contents (Elt F)),
    StableHlo.unary main_v35 main_v37 (broadcastInDim S1x2079x256 ![1, 2] bcast_S2079x256_S1x2079x256_1_2 : (⟨S2079x256, .f32⟩ : BufTy).Contents (Elt F) → (⟨S1x2079x256, .f32⟩ : BufTy).Contents (Elt F)),
    StableHlo.nullary main_c_7 (constantI S_ 32 0#32),
    StableHlo.unary main_c_7 main_v38 (broadcastInDim S2079 ![] bcast_S_S2079 : (⟨S_, .i32⟩ : BufTy).Contents (Elt F) → (⟨S2079, .i32⟩ : BufTy).Contents (Elt F)),
    StableHlo.binary main_c_2 main_v38 main_v39 (cmpi .slt : (⟨S2079, .i32⟩ : BufTy).Contents (Elt F) → (⟨S2079, .i32⟩ : BufTy).Contents (Elt F) → (⟨S2079, .i1⟩ : BufTy).Contents (Elt F)),
    StableHlo.nullary main_c_8 (constantI S_ 32 2016#32),
    StableHlo.unary main_c_8 main_v40 (broadcastInDim S2079 ![] bcast_S_S2079 : (⟨S_, .i32⟩ : BufTy).Contents (Elt F) → (⟨S2079, .i32⟩ : BufTy).Contents (Elt F)),
    StableHlo.binary main_c_2 main_v40 main_v41 (addi : (⟨S2079, .i32⟩ : BufTy).Contents (Elt F) → (⟨S2079, .i32⟩ : BufTy).Contents (Elt F) → (⟨S2079, .i32⟩ : BufTy).Contents (Elt F)),
    StableHlo.ternary main_v39 main_v41 main_c_2 main_v42 (select : (⟨S2079, .i1⟩ : BufTy).Contents (Elt F) → (⟨S2079, .i32⟩ : BufTy).Contents (Elt F) → (⟨S2079, .i32⟩ : BufTy).Contents (Elt F) → (⟨S2079, .i32⟩ : BufTy).Contents (Elt F)),
    StableHlo.unary main_v42 main_v43 (broadcastInDim S2079x1 ![0] bcast_S2079_S2079x1_0 : (⟨S2079, .i32⟩ : BufTy).Contents (Elt F) → (⟨S2079x1, .i32⟩ : BufTy).Contents (Elt F)),
    StableHlo.binary main_v28 main_v43 main_v44 ((fun x i => Host.gather gather_S64x2016x256_S2079x1_S64x2079x256_02_1_n_n_1_1_641256 x i) : (⟨S64x2016x256, .f32⟩ : BufTy).Contents (Elt F) → (⟨S2079x1, .i32⟩ : BufTy).Contents (Elt F) → (⟨S64x2079x256, .f32⟩ : BufTy).Contents (Elt F)),
    StableHlo.TRef.unary (.of main_v36 : StableHlo.TRef sig ⟨S2079x1, .i1⟩) (.of main_call0_v0 : StableHlo.TRef sig ⟨S64x2079x256, .i1⟩) (broadcastInDim S64x2079x256 ![1, 2] bcast_S2079x1_S64x2079x256_1_2),
    StableHlo.TRef.unary (.of main_v37 : StableHlo.TRef sig ⟨S1x2079x256, .f32⟩) (.of main_call0_v1 : StableHlo.TRef sig ⟨S64x2079x256, .f32⟩) (broadcastInDim S64x2079x256 ![0, 1, 2] bcast_S1x2079x256_S64x2079x256_0_1_2),
    StableHlo.TRef.ternary (.of main_call0_v0 : StableHlo.TRef sig ⟨S64x2079x256, .i1⟩) (.of main_call0_v1 : StableHlo.TRef sig ⟨S64x2079x256, .f32⟩) (.of main_v44 : StableHlo.TRef sig ⟨S64x2079x256, .f32⟩) (.of main_v45 : StableHlo.TRef sig ⟨S64x2079x256, .f32⟩) select ]

/-- The join. -/
abbrev opsC : List (HloOp τ sig (Elt F)) :=
  [ StableHlo.binary main_v20 main_v45 main_v46 ((fun a b => concatenate S64x4191x256 1 [⟨S64x2112x256, a⟩, ⟨S64x2079x256, b⟩] concatenates_S64x2112x256_S64x2079x256_S64x4191x256_d1) : (⟨S64x2112x256, .f32⟩ : BufTy).Contents (Elt F) → (⟨S64x2079x256, .f32⟩ : BufTy).Contents (Elt F) → (⟨S64x4191x256, .f32⟩ : BufTy).Contents (Elt F)) ]

theorem ops_split : (ops : List (HloOp τ sig (Elt F))) = opsA ++ (opsB ++ opsC) := rfl

/-- The T sequence over what the second part reads from the first: T with its unit axis already dropped, and the
    three tables as they stand in their buffers. -/
def tSeqRaw (T2 : (⟨S64x2016, .f32⟩ : BufTy).Contents (Elt F)) (Wt bt : (⟨S256, .f32⟩ : BufTy).Contents (Elt F))
    (tok : (⟨S4x256, .f32⟩ : BufTy).Contents (Elt F)) (c0 : IVec S2079 32) (c1 : IVec S2079 1) (c2 : IVec S2079 32) :
    (⟨S64x2079x256, .f32⟩ : BufTy).Contents (Elt F) :=
  select
    (broadcastInDim S64x2079x256 ![1, 2] bcast_S2079x1_S64x2079x256_1_2
      (broadcastInDim S2079x1 ![0] bcast_S2079_S2079x1_0 c1))
    (broadcastInDim S64x2079x256 ![0, 1, 2] bcast_S1x2079x256_S64x2079x256_0_1_2
      (broadcastInDim S1x2079x256 ![1, 2] bcast_S2079x256_S1x2079x256_1_2
        (Host.gather gather_S4x256_S2079x1_S2079x256_1_0_n_n_0_1_1256 tok (wrap2079 4#32 c0))))
    (Host.gather gather_S64x2016x256_S2079x1_S64x2079x256_02_1_n_n_1_1_641256
      (addf
        (mulf
          (broadcastInDim S64x2016x256 ![0, 1, 2] bcast_S64x2016x1_S64x2016x256_0_1_2
            (broadcastInDim S64x2016x1 ![0, 1] bcast_S64x2016_S64x2016x1_0_1 T2))
          (broadcastInDim S64x2016x256 ![0, 1, 2] bcast_S1x1x256_S64x2016x256_0_1_2
            (broadcastInDim S1x1x256 ![2] bcast_S256_S1x1x256_2 Wt)))
        (broadcastInDim S64x2016x256 ![0, 1, 2] bcast_S1x1x256_S64x2016x256_0_1_2
          (broadcastInDim S1x1x256 ![2] bcast_S256_S1x1x256_2 bt)))
      (wrap2079 2016#32 c2))

/-- At the reshaped T and the tables themselves it is the T-sequence stage: the same term, the stages' names unfolded. -/
theorem tSeqRaw_eq (T : (⟨S64x1x2016, .f32⟩ : BufTy).Contents (Elt F)) (Wt bt : (⟨S256, .f32⟩ : BufTy).Contents (Elt F))
    (tok : (⟨S4x256, .f32⟩ : BufTy).Contents (Elt F)) :
    tSeqRaw (shapeCast S64x2016 T shapeCasts_S64x1x2016_S64x2016) Wt bt tok (fun i => lit1 (S2079.rowMajor i))
        (fun i => lit2 (S2079.rowMajor i)) (fun i => lit3 (S2079.rowMajor i))
      = tSeqOf T Wt bt (tokSeqR tok) tokcR dcolR := by
  unfold tSeqRaw tSeqOf tEmb tokSeqR tokcR dcolR
  rfl

/-! ### The first part -/

set_option maxRecDepth 8192 in
set_option maxHeartbeats 1000000 in
theorem A_v20 (V : Valuation τ sig (Elt F)) :
    after opsA V (Proc.devRef .tc main_v20)
      = baySeqOf (V (Proc.devRef .tc main_arg0)) (V (Proc.devRef .tc main_arg2)) (V (Proc.devRef .tc main_arg3)) (colTokR (V (Proc.devRef .tc main_arg6))) := by
  after_results_simp
  rfl

theorem A_v1 (V : Valuation τ sig (Elt F)) :
    after opsA V (Proc.devRef .tc main_v1) = shapeCast S64x2016 (V (Proc.devRef .tc main_arg1)) shapeCasts_S64x1x2016_S64x2016 := by
  after_results_simp
  rfl

theorem A_c0 (V : Valuation τ sig (Elt F)) :
    after opsA V (Proc.devRef .tc main_c_0) = fun i => lit1 (S2079.rowMajor i) := by
  after_results_simp
  rfl
theorem A_c1 (V : Valuation τ sig (Elt F)) :
    after opsA V (Proc.devRef .tc main_c_1) = fun i => lit2 (S2079.rowMajor i) := by
  after_results_simp
  rfl
theorem A_c2 (V : Valuation τ sig (Elt F)) :
    after opsA V (Proc.devRef .tc main_c_2) = fun i => lit3 (S2079.rowMajor i) := by
  after_results_simp
  rfl
theorem A_arg0 (V : Valuation τ sig (Elt F)) :
    after opsA V (Proc.devRef .tc main_arg0) = V (Proc.devRef .tc main_arg0) := by after_results_simp
theorem A_arg1 (V : Valuation τ sig (Elt F)) :
    after opsA V (Proc.devRef .tc main_arg1) = V (Proc.devRef .tc main_arg1) := by after_results_simp
theorem A_arg2 (V : Valuation τ sig (Elt F)) :
    after opsA V (Proc.devRef .tc main_arg2) = V (Proc.devRef .tc main_arg2) := by after_results_simp
theorem A_arg3 (V : Valuation τ sig (Elt F)) :
    after opsA V (Proc.devRef .tc main_arg3) = V (Proc.devRef .tc main_arg3) := by after_results_simp
theorem A_arg4 (V : Valuation τ sig (Elt F)) :
    after opsA V (Proc.devRef .tc main_arg4) = V (Proc.devRef .tc main_arg4) := by after_results_simp
theorem A_arg5 (V : Valuation τ sig (Elt F)) :
    after opsA V (Proc.devRef .tc main_arg5) = V (Proc.devRef .tc main_arg5) := by after_results_simp
theorem A_arg6 (V : Valuation τ sig (Elt F)) :
    after opsA V (Proc.devRef .tc main_arg6) = V (Proc.devRef .tc main_arg6) := by after_results_simp

/-! ### The second part -/

set_option maxRecDepth 8192 in
set_option maxHeartbeats 1000000 in
theorem B_v45 (V : Valuation τ sig (Elt F)) :
    after opsB V (Proc.devRef .tc main_v45)
      = tSeqRaw (V (Proc.devRef .tc main_v1)) (V (Proc.devRef .tc main_arg4)) (V (Proc.devRef .tc main_arg5)) (V (Proc.devRef .tc main_arg6))
          (V (Proc.devRef .tc main_c_0)) (V (Proc.devRef .tc main_c_1)) (V (Proc.devRef .tc main_c_2)) := by
  after_results_simp
  rfl

theorem B_v20 (V : Valuation τ sig (Elt F)) :
    after opsB V (Proc.devRef .tc main_v20) = V (Proc.devRef .tc main_v20) := by after_results_simp
theorem B_arg0 (V : Valuation τ sig (Elt F)) :
    after opsB V (Proc.devRef .tc main_arg0) = V (Proc.devRef .tc main_arg0) := by after_results_simp
theorem B_arg1 (V : Valuation τ sig (Elt F)) :
    after opsB V (Proc.devRef .tc main_arg1) = V (Proc.devRef .tc main_arg1) := by after_results_simp
theorem B_arg2 (V : Valuation τ sig (Elt F)) :
    after opsB V (Proc.devRef .tc main_arg2) = V (Proc.devRef .tc main_arg2) := by after_results_simp
theorem B_arg3 (V : Valuation τ sig (Elt F)) :
    after opsB V (Proc.devRef .tc main_arg3) = V (Proc.devRef .tc main_arg3) := by after_results_simp
theorem B_arg4 (V : Valuation τ sig (Elt F)) :
    after opsB V (Proc.devRef .tc main_arg4) = V (Proc.devRef .tc main_arg4) := by after_results_simp
theorem B_arg5 (V : Valuation τ sig (Elt F)) :
    after opsB V (Proc.devRef .tc main_arg5) = V (Proc.devRef .tc main_arg5) := by after_results_simp
theorem B_arg6 (V : Valuation τ sig (Elt F)) :
    after opsB V (Proc.devRef .tc main_arg6) = V (Proc.devRef .tc main_arg6) := by after_results_simp

/-! ### The join -/

theorem C_v46 (V : Valuation τ sig (Elt F)) :
    after opsC V (Proc.devRef .tc main_v46)
      = concatenate S64x4191x256 1 [⟨S64x2112x256, (V (Proc.devRef .tc main_v20))⟩, ⟨S64x2079x256, (V (Proc.devRef .tc main_v45))⟩]
          concatenates_S64x2112x256_S64x2079x256_S64x4191x256_d1 := by
  after_results_simp
theorem C_arg0 (V : Valuation τ sig (Elt F)) :
    after opsC V (Proc.devRef .tc main_arg0) = V (Proc.devRef .tc main_arg0) := by after_results_simp
theorem C_arg1 (V : Valuation τ sig (Elt F)) :
    after opsC V (Proc.devRef .tc main_arg1) = V (Proc.devRef .tc main_arg1) := by after_results_simp
theorem C_arg2 (V : Valuation τ sig (Elt F)) :
    after opsC V (Proc.devRef .tc main_arg2) = V (Proc.devRef .tc main_arg2) := by after_results_simp
theorem C_arg3 (V : Valuation τ sig (Elt F)) :
    after opsC V (Proc.devRef .tc main_arg3) = V (Proc.devRef .tc main_arg3) := by after_results_simp
theorem C_arg4 (V : Valuation τ sig (Elt F)) :
    after opsC V (Proc.devRef .tc main_arg4) = V (Proc.devRef .tc main_arg4) := by after_results_simp
theorem C_arg5 (V : Valuation τ sig (Elt F)) :
    after opsC V (Proc.devRef .tc main_arg5) = V (Proc.devRef .tc main_arg5) := by after_results_simp
theorem C_arg6 (V : Valuation τ sig (Elt F)) :
    after opsC V (Proc.devRef .tc main_arg6) = V (Proc.devRef .tc main_arg6) := by after_results_simp

/-! ## The run -/

/-- The fold of the 59 operations at the result buffer is `refOut` of the valuation at the seven arguments. -/
theorem out_eq (V : Valuation τ sig (Elt F)) :
    after ops V (Proc.devRef .tc main_v46)
      = refOut (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [ops_split, after_append, after_append, C_v46, B_v20, A_v20, B_v45, A_v1, A_arg4, A_arg5, A_arg6, A_c0, A_c1, A_c2,
    tSeqRaw_eq]
  rfl

theorem arg0_eq (V : Valuation τ sig (Elt F)) :
    after ops V (Proc.devRef .tc main_arg0) = V (Proc.devRef .tc main_arg0) := by
  rw [ops_split, after_append, after_append, C_arg0, B_arg0, A_arg0]
theorem arg1_eq (V : Valuation τ sig (Elt F)) :
    after ops V (Proc.devRef .tc main_arg1) = V (Proc.devRef .tc main_arg1) := by
  rw [ops_split, after_append, after_append, C_arg1, B_arg1, A_arg1]
theorem arg2_eq (V : Valuation τ sig (Elt F)) :
    after ops V (Proc.devRef .tc main_arg2) = V (Proc.devRef .tc main_arg2) := by
  rw [ops_split, after_append, after_append, C_arg2, B_arg2, A_arg2]
theorem arg3_eq (V : Valuation τ sig (Elt F)) :
    after ops V (Proc.devRef .tc main_arg3) = V (Proc.devRef .tc main_arg3) := by
  rw [ops_split, after_append, after_append, C_arg3, B_arg3, A_arg3]
theorem arg4_eq (V : Valuation τ sig (Elt F)) :
    after ops V (Proc.devRef .tc main_arg4) = V (Proc.devRef .tc main_arg4) := by
  rw [ops_split, after_append, after_append, C_arg4, B_arg4, A_arg4]
theorem arg5_eq (V : Valuation τ sig (Elt F)) :
    after ops V (Proc.devRef .tc main_arg5) = V (Proc.devRef .tc main_arg5) := by
  rw [ops_split, after_append, after_append, C_arg5, B_arg5, A_arg5]
theorem arg6_eq (V : Valuation τ sig (Elt F)) :
    after ops V (Proc.devRef .tc main_arg6) = V (Proc.devRef .tc main_arg6) := by
  rw [ops_split, after_append, after_append, C_arg6, B_arg6, A_arg6]

/-- On every device, for any float values, from any memory with zero counters: every weakly fair execution of
    @main terminates with the result at `refOut` of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v46)
          = refOut (m ((c.tc : Thread nD τ).loc main_arg0))
              (m ((c.tc : Thread nD τ).loc main_arg1))
              (m ((c.tc : Thread nD τ).loc main_arg2))
              (m ((c.tc : Thread nD τ).loc main_arg3))
              (m ((c.tc : Thread nD τ).loc main_arg4))
              (m ((c.tc : Thread nD τ).loc main_arg5))
              (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v46).trans (out_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c)),
      (h c main_arg5).trans (arg5_eq (launchContents m c)),
      (h c main_arg6).trans (arg6_eq (launchContents m c))⟩)
    (run_seq scopedRefs_eq scopedSems_eq defs main (fun _ => ops) main_eq (fun _ => ops_sub) m ρ)

end Cert.ReferenceIdeal.RefRun

end
-- ==== Proof.RefLayout.lean ====
/-
  The reference's layout operations read at an index, each over an arbitrary operand:
  * a broadcast along new or unit axes reads its operand at the coordinates it keeps;
  * dropping a unit axis keeps the other coordinates;
  * flattening [64,64,33,256] to [64,2112,256] puts (c, s) at position 33·c + s, so position p reads column p / 33,
    slot p % 33;
  * the slot concatenation [64,64,32+1,256] reads its first piece at a slot s < 32 and its second at s = 32;
  * the position concatenation [64,2112+2079,256] reads its first piece at p < 2112 and its second at p − 2112
    otherwise.
-/
import proofs.«180589_j5643587026959_2_alg».proof.Proof.Gen.ReferenceIdeal
import Idealize.ShloMosaic.Lib.Pipeline.Value
import Idealize.ShloMosaic.Lib.ValueIdx

noncomputable section

namespace Cert.ReferenceIdeal.RefLayout

open Cert.ReferenceIdeal Cert.ReferenceIdeal.Gen Idealize.ShloMosaic Idealize.ShloMosaic.ValueIdx

/-! ## Broadcasts at an index -/

section Broadcasts
variable {α : Type}

/-- [64,64,32] viewed [64,64,32,1]. -/
theorem bc_bcr_bcr1 (X : S64x64x32.Idx → α) (b c : Fin 64) (r : Fin 32) (u : Fin 1) :
    broadcastInDim S64x64x32x1 ![0, 1, 2] bcast_S64x64x32_S64x64x32x1_0_1_2 X (ix4 b c r u) = X (ix3 b c r) :=
  broadcastInDim_apply _ _ X _ _ (fun a => match a with | ⟨0, _⟩ => rfl | ⟨1, _⟩ => rfl | ⟨2, _⟩ => rfl)

/-- [64,64,32,1] spread along the last axis. -/
theorem bc_bcr1_bcrd (X : S64x64x32x1.Idx → α) (b c : Fin 64) (r : Fin 32) (d : Fin 256) :
    broadcastInDim S64x64x32x256 ![0, 1, 2, 3] bcast_S64x64x32x1_S64x64x32x256_0_1_2_3 X (ix4 b c r d)
      = X (ix4 b c r (0 : Fin 1)) :=
  broadcastInDim_apply _ _ X _ _ (fun a => match a with | ⟨0, _⟩ => rfl | ⟨1, _⟩ => rfl | ⟨2, _⟩ => rfl | ⟨3, _⟩ => rfl)

/-- [256] viewed [1,1,1,256]. -/
theorem bc_d_111d (X : S256.Idx → α) (u v w : Fin 1) (d : Fin 256) :
    broadcastInDim S1x1x1x256 ![3] bcast_S256_S1x1x1x256_3 X (ix4 u v w d) = X (ix1 d) :=
  broadcastInDim_apply _ _ X _ _ (fun a => match a with | ⟨0, _⟩ => rfl)

/-- [1,1,1,256] spread along the three leading axes. -/
theorem bc_111d_bcrd (X : S1x1x1x256.Idx → α) (b c : Fin 64) (r : Fin 32) (d : Fin 256) :
    broadcastInDim S64x64x32x256 ![0, 1, 2, 3] bcast_S1x1x1x256_S64x64x32x256_0_1_2_3 X (ix4 b c r d)
      = X (ix4 (0 : Fin 1) (0 : Fin 1) (0 : Fin 1) d) :=
  broadcastInDim_apply _ _ X _ _ (fun a => match a with | ⟨0, _⟩ => rfl | ⟨1, _⟩ => rfl | ⟨2, _⟩ => rfl | ⟨3, _⟩ => rfl)

/-- [64,256] viewed [1,64,1,256]. -/
theorem bc_cd_1c1d (X : S64x256.Idx → α) (u : Fin 1) (c : Fin 64) (w : Fin 1) (d : Fin 256) :
    broadcastInDim S1x64x1x256 ![1, 3] bcast_S64x256_S1x64x1x256_1_3 X (ix4 u c w d) = X (ix2 c d) :=
  broadcastInDim_apply _ _ X _ _ (fun a => match a with | ⟨0, _⟩ => rfl | ⟨1, _⟩ => rfl)

/-- [1,64,1,256] spread along the leading axis. -/
theorem bc_1c1d_bc1d (X : S1x64x1x256.Idx → α) (b c : Fin 64) (w : Fin 1) (d : Fin 256) :
    broadcastInDim S64x64x1x256 ![0, 1, 2, 3] bcast_S1x64x1x256_S64x64x1x256_0_1_2_3 X (ix4 b c w d)
      = X (ix4 (0 : Fin 1) c (0 : Fin 1) d) :=
  broadcastInDim_apply _ _ X _ _ (fun a => match a with | ⟨0, _⟩ => rfl | ⟨1, _⟩ => rfl | ⟨2, _⟩ => rfl | ⟨3, _⟩ => rfl)

/-- [64,2016] viewed [64,2016,1]. -/
theorem bc_bl_bl1 (X : S64x2016.Idx → α) (b : Fin 64) (l : Fin 2016) (u : Fin 1) :
    broadcastInDim S64x2016x1 ![0, 1] bcast_S64x2016_S64x2016x1_0_1 X (ix3 b l u) = X (ix2 b l) :=
  broadcastInDim_apply _ _ X _ _ (fun a => match a with | ⟨0, _⟩ => rfl | ⟨1, _⟩ => rfl)

/-- [64,2016,1] spread along the last axis. -/
theorem bc_bl1_bld (X : S64x2016x1.Idx → α) (b : Fin 64) (l : Fin 2016) (d : Fin 256) :
    broadcastInDim S64x2016x256 ![0, 1, 2] bcast_S64x2016x1_S64x2016x256_0_1_2 X (ix3 b l d) = X (ix3 b l (0 : Fin 1)) :=
  broadcastInDim_apply _ _ X _ _ (fun a => match a with | ⟨0, _⟩ => rfl | ⟨1, _⟩ => rfl | ⟨2, _⟩ => rfl)

/-- [256] viewed [1,1,256]. -/
theorem bc_d_11d (X : S256.Idx → α) (u v : Fin 1) (d : Fin 256) :
    broadcastInDim S1x1x256 ![2] bcast_S256_S1x1x256_2 X (ix3 u v d) = X (ix1 d) :=
  broadcastInDim_apply _ _ X _ _ (fun a => match a with | ⟨0, _⟩ => rfl)

/-- [1,1,256] spread along the two leading axes. -/
theorem bc_11d_bld (X : S1x1x256.Idx → α) (b : Fin 64) (l : Fin 2016) (d : Fin 256) :
    broadcastInDim S64x2016x256 ![0, 1, 2] bcast_S1x1x256_S64x2016x256_0_1_2 X (ix3 b l d)
      = X (ix3 (0 : Fin 1) (0 : Fin 1) d) :=
  broadcastInDim_apply _ _ X _ _ (fun a => match a with | ⟨0, _⟩ => rfl | ⟨1, _⟩ => rfl | ⟨2, _⟩ => rfl)

/-- [2079] viewed [2079,1]. -/
theorem bc_q_q1 (X : S2079.Idx → α) (q : Fin 2079) (u : Fin 1) :
    broadcastInDim S2079x1 ![0] bcast_S2079_S2079x1_0 X (ix2 q u) = X (ix1 q) :=
  broadcastInDim_apply _ _ X _ _ (fun a => match a with | ⟨0, _⟩ => rfl)

/-- [2079,1] spread to [64,2079,256]. -/
theorem bc_q1_bqd (X : S2079x1.Idx → α) (b : Fin 64) (q : Fin 2079) (d : Fin 256) :
    broadcastInDim S64x2079x256 ![1, 2] bcast_S2079x1_S64x2079x256_1_2 X (ix3 b q d) = X (ix2 q (0 : Fin 1)) :=
  broadcastInDim_apply _ _ X _ _ (fun a => match a with | ⟨0, _⟩ => rfl | ⟨1, _⟩ => rfl)

/-- [2079,256] viewed [1,2079,256]. -/
theorem bc_qd_1qd (X : S2079x256.Idx → α) (u : Fin 1) (q : Fin 2079) (d : Fin 256) :
    broadcastInDim S1x2079x256 ![1, 2] bcast_S2079x256_S1x2079x256_1_2 X (ix3 u q d) = X (ix2 q d) :=
  broadcastInDim_apply _ _ X _ _ (fun a => match a with | ⟨0, _⟩ => rfl | ⟨1, _⟩ => rfl)

/-- [1,2079,256] spread along the leading axis. -/
theorem bc_1qd_bqd (X : S1x2079x256.Idx → α) (b : Fin 64) (q : Fin 2079) (d : Fin 256) :
    broadcastInDim S64x2079x256 ![0, 1, 2] bcast_S1x2079x256_S64x2079x256_0_1_2 X (ix3 b q d) = X (ix3 (0 : Fin 1) q d) :=
  broadcastInDim_apply _ _ X _ _ (fun a => match a with | ⟨0, _⟩ => rfl | ⟨1, _⟩ => rfl | ⟨2, _⟩ => rfl)

end Broadcasts

/-! ## Reshapes at an index -/

section Reshapes
variable {α : Type}

/-- [64,1,64,32] with the unit axis dropped. -/
theorem sc_b1cr_bcr (X : S64x1x64x32.Idx → α) (b c : Fin 64) (r : Fin 32) :
    shapeCast S64x64x32 X shapeCasts_S64x1x64x32_S64x64x32 (ix3 b c r) = X (ix4 b (0 : Fin 1) c r) :=
  shapeCast_apply X _ _ _ (by
    rw [Shape.rowMajor_val_four, Shape.rowMajor_val_three]
    show ((b.val * 1 + 0) * 64 + c.val) * 32 + r.val = (b.val * 64 + c.val) * 32 + r.val
    omega)

/-- [64,1,2016] with the unit axis dropped. -/
theorem sc_b1l_bl (X : S64x1x2016.Idx → α) (b : Fin 64) (l : Fin 2016) :
    shapeCast S64x2016 X shapeCasts_S64x1x2016_S64x2016 (ix2 b l) = X (ix3 b (0 : Fin 1) l) :=
  shapeCast_apply X _ _ _ (by
    rw [Shape.rowMajor_val_three, Shape.rowMajor_val_two]
    show (b.val * 1 + 0) * 2016 + l.val = b.val * 2016 + l.val
    omega)

/-- [64,64,33,256] flattened to [64,2112,256]: position p is column p / 33, slot p % 33. -/
theorem sc_bcsd_bpd (X : S64x64x33x256.Idx → α) (b : Fin 64) (p : Fin 2112) (d : Fin 256) :
    shapeCast S64x2112x256 X shapeCasts_S64x64x33x256_S64x2112x256 (ix3 b p d)
      = X (ix4 b (⟨p.val / 33, by omega⟩ : Fin 64) (⟨p.val % 33, by omega⟩ : Fin 33) d) :=
  shapeCast_apply X _ _ _ (by
    rw [Shape.rowMajor_val_four, Shape.rowMajor_val_three]
    show ((b.val * 64 + p.val / 33) * 33 + p.val % 33) * 256 + d.val = (b.val * 2112 + p.val) * 256 + d.val
    omega)

end Reshapes

/-! ## Concatenations at an index -/

section SlotConcat
variable {α : Type}

/-- The slot concatenation at a slot below 32 reads the first piece there. -/
theorem slotCat_left (X : S64x64x32x256.Idx → α) (Y : S64x64x1x256.Idx → α) (b c : Fin 64) (s : Fin 33) (d : Fin 256)
    (hs : s.val < 32) :
    concatenate S64x64x33x256 2 [⟨S64x64x32x256, X⟩, ⟨S64x64x1x256, Y⟩]
        concatenates_S64x64x32x256_S64x64x1x256_S64x64x33x256_d2 (ix4 b c s d)
      = X (ix4 b c (⟨s.val, hs⟩ : Fin 32) d) :=
  concatenate_pair_apply_left (t := S64x64x33x256) (s₁ := S64x64x32x256) (s₂ := S64x64x1x256) (2 : Fin 4) X Y
    concatenates_S64x64x32x256_S64x64x1x256_S64x64x33x256_d2 (ix4 b c s d) rfl (ix4 b c (⟨s.val, hs⟩ : Fin 32) d)
    (fun a => match a with | ⟨0, _⟩ => rfl | ⟨1, _⟩ => rfl | ⟨2, _⟩ => rfl | ⟨3, _⟩ => rfl)

/-- The slot concatenation at slot 32 reads the second piece at its only slot. -/
theorem slotCat_right (X : S64x64x32x256.Idx → α) (Y : S64x64x1x256.Idx → α) (b c : Fin 64) (s : Fin 33) (d : Fin 256)
    (hs : ¬ s.val < 32) :
    concatenate S64x64x33x256 2 [⟨S64x64x32x256, X⟩, ⟨S64x64x1x256, Y⟩]
        concatenates_S64x64x32x256_S64x64x1x256_S64x64x33x256_d2 (ix4 b c s d)
      = Y (ix4 b c (0 : Fin 1) d) :=
  concatenate_pair_apply_right (t := S64x64x33x256) (s₁ := S64x64x32x256) (s₂ := S64x64x1x256) (2 : Fin 4) X Y
    concatenates_S64x64x32x256_S64x64x1x256_S64x64x33x256_d2 (ix4 b c s d) rfl rfl (ix4 b c (0 : Fin 1) d)
    (fun a ha => match a with
      | ⟨0, _⟩ => rfl | ⟨1, _⟩ => rfl | ⟨2, _⟩ => absurd rfl ha | ⟨3, _⟩ => rfl)
    (by have := s.isLt; show 0 + 32 = s.val; omega)

/-- The position concatenation at a position below 2112 reads the first piece there. -/
theorem posCat_left (X : S64x2112x256.Idx → α) (Y : S64x2079x256.Idx → α) (b : Fin 64) (p : Fin 4191) (d : Fin 256)
    (hp : p.val < 2112) :
    concatenate S64x4191x256 1 [⟨S64x2112x256, X⟩, ⟨S64x2079x256, Y⟩]
        concatenates_S64x2112x256_S64x2079x256_S64x4191x256_d1 (ix3 b p d)
      = X (ix3 b (⟨p.val, hp⟩ : Fin 2112) d) :=
  concatenate_pair_apply_left (t := S64x4191x256) (s₁ := S64x2112x256) (s₂ := S64x2079x256) (1 : Fin 3) X Y
    concatenates_S64x2112x256_S64x2079x256_S64x4191x256_d1 (ix3 b p d) rfl (ix3 b (⟨p.val, hp⟩ : Fin 2112) d)
    (fun a => match a with | ⟨0, _⟩ => rfl | ⟨1, _⟩ => rfl | ⟨2, _⟩ => rfl)

/-- The position concatenation at a position from 2112 on reads the second piece, 2112 less. -/
theorem posCat_right (X : S64x2112x256.Idx → α) (Y : S64x2079x256.Idx → α) (b : Fin 64) (p : Fin 4191) (d : Fin 256)
    (hp : ¬ p.val < 2112) :
    concatenate S64x4191x256 1 [⟨S64x2112x256, X⟩, ⟨S64x2079x256, Y⟩]
        concatenates_S64x2112x256_S64x2079x256_S64x4191x256_d1 (ix3 b p d)
      = Y (ix3 b (⟨p.val - 2112, by have := p.isLt; omega⟩ : Fin 2079) d) :=
  concatenate_pair_apply_right (t := S64x4191x256) (s₁ := S64x2112x256) (s₂ := S64x2079x256) (1 : Fin 3) X Y
    concatenates_S64x2112x256_S64x2079x256_S64x4191x256_d1 (ix3 b p d) rfl rfl
    (ix3 b (⟨p.val - 2112, by have := p.isLt; omega⟩ : Fin 2079) d)
    (fun a ha => match a with
      | ⟨0, _⟩ => rfl | ⟨1, _⟩ => absurd rfl ha | ⟨2, _⟩ => rfl)
    (by show p.val - 2112 + 2112 = p.val; omega)

end SlotConcat

end Cert.ReferenceIdeal.RefLayout

end
-- ==== Proof.RefRead.lean ====
/-
  The reference's output read at an index (b, p, d): it is the common value `Cert.Spec.Gat`.

  The reading goes stage by stage, each stage over VARIABLES for the arrays that come from the static tables (the
  stop-token rows colTok, the token rows tokSeq, the flags tokc, the data-index column dcol), so nothing here looks
  inside a table:
  * a broadcast along new or unit axes reads its operand at the coordinates it keeps;
  * the embeddings are pointwise: bay[b,0,c,r] · Wc[d] + bc[d] and T[b,0,l] · Wt[d] + bt[d];
  * the slot concatenation [64,64,32+1,256] reads the embedding at a slot r < 32 and the stop-token row at r = 32;
  * flattening [64,64,33,256] to [64,2112,256] puts (c, r) at position 33·c + r, so position p reads column p / 33,
    slot p % 33;
  * the T sequence selects, by the flag of q, between the token row of q and the embedding gathered at the data
    index of q (read signed, clamped into 0 … 2015);
  * the position concatenation [64,2112+2079,256] reads the container sequence at p < 2112 and the T sequence at
    q = p − 2112 otherwise.
-/
import proofs.«180589_j5643587026959_2_alg».proof.Proof.RefStages
import proofs.«180589_j5643587026959_2_alg».proof.Proof.RefLayout
import proofs.«180589_j5643587026959_2_alg».proof.Proof.Spec
import proofs.«180589_j5643587026959_2_alg».proof.Proof.LibGatherMid
import Idealize.ShloMosaic.Lib.Pipeline.Value
import Idealize.ShloMosaic.Lib.ValueIdx

noncomputable section

namespace Cert.ReferenceIdeal.RefRead

open Cert.ReferenceIdeal Cert.ReferenceIdeal.Gen Cert.ReferenceIdeal.RefRun Cert.ReferenceIdeal.RefLayout Idealize.ShloMosaic Idealize.ShloMosaic.ValueIdx

/-! ## The stages at an index -/

variable (bay : (⟨4, ![64, 1, 64, 32]⟩ : Shape).Idx → EReal) (T : (⟨3, ![64, 1, 2016]⟩ : Shape).Idx → EReal)
  (Wc bc Wt bt : (⟨1, ![256]⟩ : Shape).Idx → EReal)
  (colTok : (⟨2, ![64, 256]⟩ : Shape).Idx → EReal) (tokSeq : (⟨2, ![2079, 256]⟩ : Shape).Idx → EReal)
  (tokc : (⟨1, ![2079]⟩ : Shape).Idx → BitVec 1) (dcol : (⟨2, ![2079, 1]⟩ : Shape).Idx → BitVec 32)

/-- The container embedding at (b, c, r, d). -/
theorem bayEmb_apply (b c : Fin 64) (r : Fin 32) (d : Fin 256) :
    bayEmb (F := Ideal) bay Wc bc (ix4 b c r d) = bay (ix4 b (0 : Fin 1) c r) * Wc (ix1 d) + bc (ix1 d) := by
  unfold bayEmb
  rw [addf_apply, mulf_apply, bc_bcr1_bcrd, bc_bcr_bcr1, sc_b1cr_bcr, bc_111d_bcrd, bc_d_111d, bc_111d_bcrd, bc_d_111d]

/-- The T embedding at (b, l, d). -/
theorem tEmb_apply (b : Fin 64) (l : Fin 2016) (d : Fin 256) :
    tEmb (F := Ideal) T Wt bt (ix3 b l d) = T (ix3 b (0 : Fin 1) l) * Wt (ix1 d) + bt (ix1 d) := by
  unfold tEmb
  rw [addf_apply, mulf_apply, bc_bl1_bld, bc_bl_bl1, sc_b1l_bl, bc_11d_bld, bc_d_11d, bc_11d_bld, bc_d_11d]

/-- The stop-token slot's piece at (b, c, 0, d): the column's stop-token row. -/
theorem stopPiece_apply (b c : Fin 64) (w : Fin 1) (d : Fin 256) :
    broadcastInDim S64x64x1x256 ![0, 1, 2, 3] bcast_S1x64x1x256_S64x64x1x256_0_1_2_3
        (broadcastInDim S1x64x1x256 ![1, 3] bcast_S64x256_S1x64x1x256_1_3 colTok) (ix4 b c w d)
      = colTok (ix2 c d) := by
  rw [bc_1c1d_bc1d, bc_cd_1c1d]

/-- The container sequence at (b, p, d), p < 2112: the embedded scalar at a slot below 32, the column's stop-token
    row at slot 32. -/
theorem baySeqOf_apply (b : Fin 64) (p : Fin 2112) (d : Fin 256) :
    baySeqOf (F := Ideal) bay Wc bc colTok (ix3 b p d)
      = if hr : p.val % 33 < 32 then
          bay (ix4 b (0 : Fin 1) (⟨p.val / 33, by omega⟩ : Fin 64) (⟨p.val % 33, hr⟩ : Fin 32)) * Wc (ix1 d) + bc (ix1 d)
        else colTok (ix2 (⟨p.val / 33, by omega⟩ : Fin 64) d) := by
  unfold baySeqOf
  rw [sc_bcsd_bpd]
  by_cases hr : p.val % 33 < 32
  · rw [dif_pos hr, slotCat_left _ _ _ _ _ _ hr, bayEmb_apply]
  · rw [dif_neg hr, slotCat_right _ _ _ _ _ _ hr, stopPiece_apply]

/-- The T sequence at (b, q, d): the flag's select between the token row and the embedded scalar at the data index. -/
theorem tSeqOf_apply (b : Fin 64) (q : Fin 2079) (d : Fin 256) :
    tSeqOf (F := Ideal) T Wt bt tokSeq tokc dcol (ix3 b q d)
      = Scalar.select (tokc (ix1 q)) (tokSeq (ix2 q d))
          (T (ix3 b (0 : Fin 1) (Cert.Spec.dataPos dcol q)) * Wt (ix1 d) + bt (ix1 d)) := by
  unfold tSeqOf
  rw [select_apply, bc_q1_bqd, bc_q_q1, bc_1qd_bqd, bc_qd_1qd]
  refine congrArg _ ?_
  refine (Cert.LibGatherMid.gather3_apply (by decide) _ (tEmb (F := Ideal) T Wt bt) dcol b q d).trans ?_
  exact tEmb_apply T Wt bt b (Cert.Spec.dataPos dcol q) d

/-- The output over the table-derived arrays at (b, p, d) is the common value. -/
theorem refOutOf_apply (b : Fin 64) (p : Fin 4191) (d : Fin 256) :
    refOutOf (F := Ideal) bay T Wc bc Wt bt colTok tokSeq tokc dcol (ix3 b p d)
      = Cert.Spec.Gat bay T Wc bc Wt bt colTok tokSeq tokc dcol b p d := by
  unfold refOutOf Cert.Spec.Gat
  by_cases h : p.val < 2112
  · rw [dif_pos h, posCat_left _ _ _ _ _ h, baySeqOf_apply]
    rfl
  · rw [dif_neg h, posCat_right _ _ _ _ _ h, tSeqOf_apply]
    rfl

/-- THE REFERENCE'S OUTPUT AT (b, p, d) is the common value at the reference's own table-derived arrays. -/
theorem refOut_apply (tok : (⟨2, ![4, 256]⟩ : Shape).Idx → EReal) (b : Fin 64) (p : Fin 4191) (d : Fin 256) :
    refOut (F := Ideal) bay T Wc bc Wt bt tok (ix3 b p d)
      = Cert.Spec.Gat bay T Wc bc Wt bt (colTokR (F := Ideal) tok) (tokSeqR (F := Ideal) tok) tokcR dcolR b p d := by
  unfold refOut
  exact refOutOf_apply bay T Wc bc Wt bt (colTokR (F := Ideal) tok) (tokSeqR (F := Ideal) tok) tokcR dcolR b p d

end Cert.ReferenceIdeal.RefRead

end
-- ==== Proof.lean ====
/-
  The kernel and its reference compute the same array [64, 4191, 256] of extended reals.

  Write an output index as (b, p, d). Positions p < 2112 = 64 · 33 are the container sequence, position p = 33 · c + r
  being slot r of column c: a slot r < 32 holds bay[b, 0, c, r] · Wc[d] + bc[d], and the last slot r = 32 holds the
  column's stop-token row. Positions p ≥ 2112 are the T sequence: with q = p − 2112, a token position holds its token
  row, and any other position holds T[b, 0, l] · Wt[d] + bt[d] with l the position's static data index. Which positions
  are token positions, which token each holds and which datum each other position reads are static tables, the same in
  the two programs (Tables, Bridge); nothing depends on what they hold.

  The reference evaluates that description directly: its host operations are run and read back as one term of the
  arguments (RefRun), and that term is read at an index through its concatenations, reshapes, broadcasts, gather and
  select (RefLayout, RefRead) down to the function Spec.Gat.

  The kernel's program first builds three tables on the host — a scalar src3[b, p], a weight row Wrow[p, d] and an
  additive row tbl[p, d] (KerDefs, KerHost: what the one kernel call finds in its three input arrays) — and the call
  then writes src3[b, p] · Wrow[p, d] + tbl[p, d] for every (b, p, d), one batch row b per grid point (KerBlocks). Read
  at an index (KerReadSrc, KerRead), the scalar is the datum where there is one and 0 at every stop slot and token
  position, the weight is Wc or Wt by sequence, and the additive row is the bias where there is a datum and the token
  row elsewhere. The two descriptions agree because 0 · w + t = t for all extended reals w and t (Spec.sum_eq); no
  other law is needed, so finiteness of the inputs is never used.

  The three frame claims are the generated frame runs (for the reference, its run with the result dropped); the kernel
  is its own idealization, no operation having been rewritten.
-/
import proofs.«180589_j5643587026959_2_alg».proof.Defs
import proofs.«180589_j5643587026959_2_alg».proof.Proof.Gen.Kernel
import proofs.«180589_j5643587026959_2_alg».proof.Proof.Gen.Kernel.Skeleton
import proofs.«180589_j5643587026959_2_alg».proof.Proof.Gen.Kernel.Launch
import proofs.«180589_j5643587026959_2_alg».proof.Proof.Gen.Kernel.Points
import proofs.«180589_j5643587026959_2_alg».proof.Proof.Gen.Kernel.Frame
import proofs.«180589_j5643587026959_2_alg».proof.Proof.Gen.KernelIdeal
import proofs.«180589_j5643587026959_2_alg».proof.Proof.Gen.KernelIdeal.Skeleton
import proofs.«180589_j5643587026959_2_alg».proof.Proof.Gen.KernelIdeal.Launch
import proofs.«180589_j5643587026959_2_alg».proof.Proof.Gen.KernelIdeal.Points
import proofs.«180589_j5643587026959_2_alg».proof.Proof.Gen.KernelIdeal.Frame
import proofs.«180589_j5643587026959_2_alg».proof.Proof.Gen.KernelIdeal.Value
import proofs.«180589_j5643587026959_2_alg».proof.Proof.Gen.ReferenceIdeal
import proofs.«180589_j5643587026959_2_alg».proof.Proof.Gen.Pre_finite_inputs
import proofs.«180589_j5643587026959_2_alg».proof.Proof.Spec
import proofs.«180589_j5643587026959_2_alg».proof.Proof.Bridge
import proofs.«180589_j5643587026959_2_alg».proof.Proof.KerBlocks
import proofs.«180589_j5643587026959_2_alg».proof.Proof.KerHost
import proofs.«180589_j5643587026959_2_alg».proof.Proof.KerRead
import proofs.«180589_j5643587026959_2_alg».proof.Proof.KerReadSrc
import proofs.«180589_j5643587026959_2_alg».proof.Proof.RefRun
import proofs.«180589_j5643587026959_2_alg».proof.Proof.RefRead
import Idealize.ShloMosaic.Adequacy
import Idealize.ShloMosaic.Init

noncomputable section

open Idealize.ShloMosaic Idealize.ShloMosaic.TcCoe Idealize.SL.Sem Idealize.ShloMosaic.ValueIdx

/-! ## The kernel's output array is the reference's result -/

namespace Cert.Proof.Value

open Cert.KernelIdeal.KerHost Cert.ReferenceIdeal.RefRun

/-- The kernel's output array, scalar · weight + row of the three tables its host prefix builds, is the reference's
    term of the same argument arrays: index by index both are Spec.Gat, the kernel's side by 0 · w + t = t. -/
theorem kernel_value (m : (ℓ : Loc Cert.KernelIdeal.nD Cert.KernelIdeal.τ Cert.KernelIdeal.sig) → Buf (Elt Ideal) ℓ) (c : Dev Cert.KernelIdeal.nD) :
    Cert.KernelIdeal.KerBlocks.outOf (F := Ideal) (Cert.KernelIdeal.KerBlocks.srcArr m c) (Cert.KernelIdeal.KerBlocks.wrowArr m c) (Cert.KernelIdeal.KerBlocks.tblArr m c)
      = refOut (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
          (m ((c.tc : Thread Cert.KernelIdeal.nD Cert.KernelIdeal.τ).loc Cert.KernelIdeal.main_arg2)) (m ((c.tc : Thread Cert.KernelIdeal.nD Cert.KernelIdeal.τ).loc Cert.KernelIdeal.main_arg3))
          (m ((c.tc : Thread Cert.KernelIdeal.nD Cert.KernelIdeal.τ).loc Cert.KernelIdeal.main_arg4)) (m ((c.tc : Thread Cert.KernelIdeal.nD Cert.KernelIdeal.τ).loc Cert.KernelIdeal.main_arg5))
          (m ((c.tc : Thread Cert.KernelIdeal.nD Cert.KernelIdeal.τ).loc Cert.KernelIdeal.main_arg6)) := by
  funext i
  obtain ⟨b, p, d, rfl⟩ : ∃ (b : Fin 64) (p : Fin 4191) (d : Fin 256), i = ix3 b p d := ⟨i 0, i 1, i 2, eq_ix3 i⟩
  rw [Cert.ReferenceIdeal.RefRead.refOut_apply, ← Cert.Bridge.colTok_eq, ← Cert.Bridge.tokSeq_eq, ← Cert.Bridge.tokc_eq, ← Cert.Bridge.dcol_eq,
    ← Cert.Spec.sum_eq, ← src3K_apply, ← wrowK_apply, ← tblK_apply]
  have e0 : Cert.KernelIdeal.KerBlocks.srcIx (ix3 b p d) = ix3 b p 0 := by
    funext a; match a with | ⟨0, _⟩ => rfl | ⟨1, _⟩ => rfl | ⟨2, _⟩ => rfl
  have e1 : Cert.KernelIdeal.KerBlocks.rowIx (ix3 b p d) = ix2 p d := by
    funext a; match a with | ⟨0, _⟩ => rfl | ⟨1, _⟩ => rfl
  show (Cert.KernelIdeal.KerBlocks.srcArr m c (Cert.KernelIdeal.KerBlocks.srcIx (ix3 b p d))) * (Cert.KernelIdeal.KerBlocks.wrowArr m c (Cert.KernelIdeal.KerBlocks.rowIx (ix3 b p d))) + (Cert.KernelIdeal.KerBlocks.tblArr m c (Cert.KernelIdeal.KerBlocks.rowIx (ix3 b p d))) = _
  rw [e0, e1]
  rw [show Cert.KernelIdeal.KerBlocks.srcArr m c = _ from V45_eq m c, show Cert.KernelIdeal.KerBlocks.wrowArr m c = _ from V30_eq m c,
    show Cert.KernelIdeal.KerBlocks.tblArr m c = _ from V25_eq m c]

end Cert.Proof.Value

/-! ## The claims -/

namespace Cert.Proof

/-- The word-level kernel terminates without a fault and leaves its arguments unchanged: the generated frame run. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- So does the reference: its run, with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- From memories agreeing on the seven arguments both programs end with the output array at the reference's term of
    the arguments: the kernel's by kernel_value, the reference's by its run. -/
theorem algebraic : Cert.algebraic_KernelIdeal_ReferenceIdeal := by
  intro m ρ m' ρ' _ hagree
  refine ⟨fun c => Cert.ReferenceIdeal.RefRun.refOut (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
          (m ((c.tc : Thread Cert.KernelIdeal.nD Cert.KernelIdeal.τ).loc Cert.KernelIdeal.main_arg2)) (m ((c.tc : Thread Cert.KernelIdeal.nD Cert.KernelIdeal.τ).loc Cert.KernelIdeal.main_arg3))
          (m ((c.tc : Thread Cert.KernelIdeal.nD Cert.KernelIdeal.τ).loc Cert.KernelIdeal.main_arg4)) (m ((c.tc : Thread Cert.KernelIdeal.nD Cert.KernelIdeal.τ).loc Cert.KernelIdeal.main_arg5))
          (m ((c.tc : Thread Cert.KernelIdeal.nD Cert.KernelIdeal.τ).loc Cert.KernelIdeal.main_arg6)), ?_, ?_⟩
  · exact (θ_run Cert.KernelIdeal.defs _ _).mono (fun r h c => ⟨(h c).1.trans (Cert.Proof.Value.kernel_value m c), (h c).2⟩)
      (Cert.KernelIdeal.KerBlocks.run (F := Ideal) m ρ)
  · refine (θ_run Cert.ReferenceIdeal.defs _ _).mono (fun r h c => ⟨(h c).1.trans ?_, (h c).2⟩) (Cert.ReferenceIdeal.RefRun.run (F := Ideal) m' ρ')
    obtain ⟨h0, h1, h2, h3, h4, h5, h6⟩ := hagree c
    rw [h0, h1, h2, h3, h4, h5, h6]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
